-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x4x4 : Shape := ⟨3, ![1048576, 4, 4]⟩
abbrev S1048576x3 : Shape := ⟨2, ![1048576, 3]⟩
abbrev S_ : Shape := ⟨0, ![]⟩

class Facts : Prop where
  bcast_S_S1048576x4x4 : S_.BroadcastsInDim S1048576x4x4 (![] : Fin 0 → Fin S1048576x4x4.rank)
  reducesTo_S1048576x4x4_S_d0_1_2 : S1048576x4x4.ReducesTo [0, 1, 2] S_
  h_S_ : 0 < S_.numel
  bcast_S_S1048576x3 : S_.BroadcastsInDim S1048576x3 (![] : Fin 0 → Fin S1048576x3.rank)
  reducesTo_S1048576x3_S_d0_1 : S1048576x3.ReducesTo [0, 1] S_

variable [Facts]

def fn {F : FTy → Type} [FloatOps F] (main_arg0 : FVec F S1048576x4x4 .f32) (main_arg1 : FVec F S1048576x3 .f32) (main_arg2 : FVec F S1048576x3 .f32) : IVec S_ 1 :=
  let main_v0 : FVec F S1048576x4x4 .f32 := Host.absf main_arg0
  let main_cst : FVec F S_ .f32 := constant S_ .f32 0x7F800000#32
  let main_v1 : FVec F S1048576x4x4 .f32 := broadcastInDim S1048576x4x4 ![] bcast_S_S1048576x4x4 main_cst
  let main_v2 : IVec S1048576x4x4 1 := cmpf .olt main_v0 main_v1
  let main_c : IVec S_ 1 := constantI S_ 1 1#1
  let main_v3 : IVec S_ 1 := (fun x v => Host.reduce IntOp.andi x v reducesTo_S1048576x4x4_S_d0_1_2 h_S_) main_v2 main_c
  let main_v4 : FVec F S1048576x3 .f32 := Host.absf main_arg1
  let main_cst_0 : FVec F S_ .f32 := constant S_ .f32 0x7F800000#32
  let main_v5 : FVec F S1048576x3 .f32 := broadcastInDim S1048576x3 ![] bcast_S_S1048576x3 main_cst_0
  let main_v6 : IVec S1048576x3 1 := cmpf .olt main_v4 main_v5
  let main_c_1 : IVec S_ 1 := constantI S_ 1 1#1
  let main_v7 : IVec S_ 1 := (fun x v => Host.reduce IntOp.andi x v reducesTo_S1048576x3_S_d0_1 h_S_) main_v6 main_c_1
  let main_v8 : IVec S_ 1 := andi main_v3 main_v7
  let main_v9 : FVec F S1048576x3 .f32 := Host.absf main_arg2
  let main_cst_2 : FVec F S_ .f32 := constant S_ .f32 0x7F800000#32
  let main_v10 : FVec F S1048576x3 .f32 := broadcastInDim S1048576x3 ![] bcast_S_S1048576x3 main_cst_2
  let main_v11 : IVec S1048576x3 1 := cmpf .olt main_v9 main_v10
  let main_c_3 : IVec S_ 1 := constantI S_ 1 1#1
  let main_v12 : IVec S_ 1 := (fun x v => Host.reduce IntOp.andi x v reducesTo_S1048576x3_S_d0_1 h_S_) main_v11 main_c_3
  let main_v13 : IVec S_ 1 := andi main_v8 main_v12
  main_v13
-- ==== Kernel.lean ====
abbrev S1048576x4x4 : Shape := ⟨3, ![1048576, 4, 4]⟩
abbrev S1048576x3 : Shape := ⟨2, ![1048576, 3]⟩
abbrev S1048576x16 : Shape := ⟨2, ![1048576, 16]⟩
abbrev S3x1048576 : Shape := ⟨2, ![3, 1048576]⟩
abbrev S16384x16 : Shape := ⟨2, ![16384, 16]⟩
abbrev S3x16384 : Shape := ⟨2, ![3, 16384]⟩
abbrev S16x16384 : Shape := ⟨2, ![16, 16384]⟩
abbrev S1x16384 : Shape := ⟨2, ![1, 16384]⟩
abbrev S16384 : Shape := ⟨1, ![16384]⟩

abbrev nBuf : Space → Nat
  | .hbm => 8
  | .vmem => 8
  | .smem => 0
  | _ => 0

abbrev bufTy : (tb : Table) → Fin (tcTables nBuf tb) → BufTy
  | .hbm, ⟨0, _⟩ => ⟨S1048576x4x4, .f32⟩
  | .hbm, ⟨1, _⟩ => ⟨S1048576x3, .f32⟩
  | .hbm, ⟨2, _⟩ => ⟨S1048576x3, .f32⟩
  | .hbm, ⟨3, _⟩ => ⟨S1048576x16, .f32⟩
  | .hbm, ⟨4, _⟩ => ⟨S3x1048576, .f32⟩
  | .hbm, ⟨5, _⟩ => ⟨S3x1048576, .f32⟩
  | .hbm, ⟨6, _⟩ => ⟨S1048576x16, .f32⟩
  | .hbm, ⟨7, _⟩ => ⟨S1048576x4x4, .f32⟩
  | .local _ .vmem, ⟨0, _⟩ => ⟨S16384x16, .f32⟩
  | .local _ .vmem, ⟨1, _⟩ => ⟨S16384x16, .f32⟩
  | .local _ .vmem, ⟨2, _⟩ => ⟨S3x16384, .f32⟩
  | .local _ .vmem, ⟨3, _⟩ => ⟨S3x16384, .f32⟩
  | .local _ .vmem, ⟨4, _⟩ => ⟨S3x16384, .f32⟩
  | .local _ .vmem, ⟨5, _⟩ => ⟨S3x16384, .f32⟩
  | .local _ .vmem, ⟨6, _⟩ => ⟨S16384x16, .f32⟩
  | .local _ .vmem, ⟨7, _⟩ => ⟨S16384x16, .f32⟩
  | _, _ => ⟨S1048576x4x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16384x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1048576x4x4_S1048576x16 : S1048576x4x4.ShapeCasts S1048576x16
  transposes_S1048576x3_S3x1048576_1_0 : S1048576x3.Transposes [1, 0] S3x1048576
  inb_S16384x16_S16384x16_0_0 : ∀ a, (![0, 0] : Fin 2 → Nat) a + S16384x16.size a ≤ S16384x16.size a
  h_S16384x16 : 0 < S16384x16.numel
  shapeCasts_S16384x16_S16384x16 : S16384x16.ShapeCasts S16384x16
  inb_S3x16384_S3x16384_0_0 : ∀ a, (![0, 0] : Fin 2 → Nat) a + S3x16384.size a ≤ S3x16384.size a
  h_S3x16384 : 0 < S3x16384.numel
  shapeCasts_S3x16384_S3x16384 : S3x16384.ShapeCasts S3x16384
  transposes_S16384x16_p1_0_S16x16384 : S16384x16.Transposes [1, 0] S16x16384
  slices_S3x16384_o0_0_S1x16384 : S3x16384.Slices ![0, 0] S1x16384
  shapeCasts_S1x16384_S16384 : S1x16384.ShapeCasts S16384
  slices_S3x16384_o1_0_S1x16384 : S3x16384.Slices ![1, 0] S1x16384
  slices_S3x16384_o2_0_S1x16384 : S3x16384.Slices ![2, 0] S1x16384
  slices_S16x16384_o0_0_S1x16384 : S16x16384.Slices ![0, 0] S1x16384
  slices_S16x16384_o4_0_S1x16384 : S16x16384.Slices ![4, 0] S1x16384
  slices_S16x16384_o8_0_S1x16384 : S16x16384.Slices ![8, 0] S1x16384
  slices_S16x16384_o12_0_S1x16384 : S16x16384.Slices ![12, 0] S1x16384
  slices_S16x16384_o1_0_S1x16384 : S16x16384.Slices ![1, 0] S1x16384
  slices_S16x16384_o5_0_S1x16384 : S16x16384.Slices ![5, 0] S1x16384
  slices_S16x16384_o9_0_S1x16384 : S16x16384.Slices ![9, 0] S1x16384
  slices_S16x16384_o13_0_S1x16384 : S16x16384.Slices ![13, 0] S1x16384
  slices_S16x16384_o2_0_S1x16384 : S16x16384.Slices ![2, 0] S1x16384
  slices_S16x16384_o6_0_S1x16384 : S16x16384.Slices ![6, 0] S1x16384
  slices_S16x16384_o10_0_S1x16384 : S16x16384.Slices ![10, 0] S1x16384
  slices_S16x16384_o14_0_S1x16384 : S16x16384.Slices ![14, 0] S1x16384
  slices_S16x16384_o3_0_S1x16384 : S16x16384.Slices ![3, 0] S1x16384
  slices_S16x16384_o7_0_S1x16384 : S16x16384.Slices ![7, 0] S1x16384
  slices_S16x16384_o11_0_S1x16384 : S16x16384.Slices ![11, 0] S1x16384
  slices_S16x16384_o15_0_S1x16384 : S16x16384.Slices ![15, 0] S1x16384
  shapeCasts_S16384_S1x16384 : S16384.ShapeCasts S1x16384
  concatenates_S1x16384_S1x16384_S1x16384_S1x16384_S1x16384_S1x16384_S1x16384_S1x16384_S1x16384_S1x16384_S1x16384_S1x16384_S1x16384_S1x16384_S1x16384_S1x16384_S16x16384_d0 : Shape.Concatenates [S1x16384, S1x16384, S1x16384, S1x16384, S1x16384, S1x16384, S1x16384, S1x16384, S1x16384, S1x16384, S1x16384, S1x16384, S1x16384, S1x16384, S1x16384, S1x16384] S16x16384 0
  transposes_S16x16384_p1_0_S16384x16 : S16x16384.Transposes [1, 0] S16384x16
  shapeCasts_S1048576x16_S1048576x4x4 : S1048576x16.ShapeCasts S1048576x4x4
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x16.size a ≤ S1048576x16.size a
  hwx0_0 : ∀ i : grid0.Coords, EltTy.bits .f32 = 32 ∨ (Rect.block (s := S1048576x16) S16384x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x16384.size a ≤ S3x1048576.size a
  hwx0_1 : ∀ i : grid0.Coords, EltTy.bits .f32 = 32 ∨ (Rect.block (s := S3x1048576) S3x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x16384.size a ≤ S3x1048576.size a
  hwx0_2 : ∀ i : grid0.Coords, EltTy.bits .f32 = 32 ∨ (Rect.block (s := S3x1048576) S3x16384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16384x16.size a ≤ S1048576x16.size a
  hwx0_3 : ∀ i : grid0.Coords, EltTy.bits .f32 = 32 ∨ (Rect.block (s := S1048576x16) S16384x16.size (cc0_transform_3 i) (hinb0_3 i)).WholeWords (EltTy.packing .f32)

variable [Facts₀]

abbrev win0_0 : Pipeline.Window sig grid0 :=
  Pipeline.Window.ofSpec (Memref.whole main_v0) S16384x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S3x16384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16384x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1048576x4x4 : Shape := ⟨3, ![1048576, 4, 4]⟩
abbrev S1048576x3 : Shape := ⟨2, ![1048576, 3]⟩
abbrev S4 : Shape := ⟨1, ![4]⟩
abbrev S1048576x1 : Shape := ⟨2, ![1048576, 1]⟩
abbrev S1048576 : Shape := ⟨1, ![1048576]⟩
abbrev S_ : Shape := ⟨0, ![]⟩
abbrev S1048576x1x3 : Shape := ⟨3, ![1048576, 1, 3]⟩
abbrev S1048576x3x3 : Shape := ⟨3, ![1048576, 3, 3]⟩
abbrev S1048576x1x1 : Shape := ⟨3, ![1048576, 1, 1]⟩
abbrev S3x3 : Shape := ⟨2, ![3, 3]⟩
abbrev S1x3x3 : Shape := ⟨3, ![1, 3, 3]⟩
abbrev S1048576x3x1 : Shape := ⟨3, ![1048576, 3, 1]⟩
abbrev S1048576x3x4 : Shape := ⟨3, ![1048576, 3, 4]⟩
abbrev S1x1x4 : Shape := ⟨3, ![1, 1, 4]⟩
abbrev S1048576x1x4 : Shape := ⟨3, ![1048576, 1, 4]⟩

abbrev nBuf : Space → Nat
  | .hbm => 71
  | .vmem => 0
  | .smem => 0
  | _ => 0

abbrev bufTy : (tb : Table) → Fin (tcTables nBuf tb) → BufTy
  | .hbm, ⟨0, _⟩ => ⟨S1048576x4x4, .f32⟩
  | .hbm, ⟨1, _⟩ => ⟨S1048576x3, .f32⟩
  | .hbm, ⟨2, _⟩ => ⟨S1048576x3, .f32⟩
  | .hbm, ⟨3, _⟩ => ⟨S4, .f32⟩
  | .hbm, ⟨4, _⟩ => ⟨S1048576x1, .f32⟩
  | .hbm, ⟨5, _⟩ => ⟨S1048576, .f32⟩
  | .hbm, ⟨6, _⟩ => ⟨S_, .f32⟩
  | .hbm, ⟨7, _⟩ => ⟨S1048576, .f32⟩
  | .hbm, ⟨8, _⟩ => ⟨S1048576x1, .f32⟩
  | .hbm, ⟨9, _⟩ => ⟨S1048576, .f32⟩
  | .hbm, ⟨10, _⟩ => ⟨S1048576x1, .f32⟩
  | .hbm, ⟨11, _⟩ => ⟨S1048576, .f32⟩
  | .hbm, ⟨12, _⟩ => ⟨S1048576x1, .f32⟩
  | .hbm, ⟨13, _⟩ => ⟨S1048576, .f32⟩
  | .hbm, ⟨14, _⟩ => ⟨S1048576, .f32⟩
  | .hbm, ⟨15, _⟩ => ⟨S1048576x1, .f32⟩
  | .hbm, ⟨16, _⟩ => ⟨S1048576x1, .f32⟩
  | .hbm, ⟨17, _⟩ => ⟨S1048576x1, .f32⟩
  | .hbm, ⟨18, _⟩ => ⟨S1048576x3, .f32⟩
  | .hbm, ⟨19, _⟩ => ⟨S1048576, .f32⟩
  | .hbm, ⟨20, _⟩ => ⟨S1048576x1, .f32⟩
  | .hbm, ⟨21, _⟩ => ⟨S1048576x1, .f32⟩
  | .hbm, ⟨22, _⟩ => ⟨S1048576x1, .f32⟩
  | .hbm, ⟨23, _⟩ => ⟨S1048576x3, .f32⟩
  | .hbm, ⟨24, _⟩ => ⟨S1048576, .f32⟩
  | .hbm, ⟨25, _⟩ => ⟨S1048576x1, .f32⟩
  | .hbm, ⟨26, _⟩ => ⟨S1048576x1, .f32⟩
  | .hbm, ⟨27, _⟩ => ⟨S1048576x1, .f32⟩
  | .hbm, ⟨28, _⟩ => ⟨S1048576x3, .f32⟩
  | .hbm, ⟨29, _⟩ => ⟨S1048576x1x3, .f32⟩
  | .hbm, ⟨30, _⟩ => ⟨S1048576x1x3, .f32⟩
  | .hbm, ⟨31, _⟩ => ⟨S1048576x1x3, .f32⟩
  | .hbm, ⟨32, _⟩ => ⟨S1048576x3x3, .f32⟩
  | .hbm, ⟨33, _⟩ => ⟨S1048576x3, .f32⟩
  | .hbm, ⟨34, _⟩ => ⟨S_, .f32⟩
  | .hbm, ⟨35, _⟩ => ⟨S1048576, .f32⟩
  | .hbm, ⟨36, _⟩ => ⟨S1048576, .f32⟩
  | .hbm, ⟨37, _⟩ => ⟨S_, .f32⟩
  | .hbm, ⟨38, _⟩ => ⟨S1048576, .f32⟩
  | .hbm, ⟨39, _⟩ => ⟨S1048576, .f32⟩
  | .hbm, ⟨40, _⟩ => ⟨S1048576x1x1, .f32⟩
  | .hbm, ⟨41, _⟩ => ⟨S3x3, .i32⟩
  | .hbm, ⟨42, _⟩ => ⟨S3x3, .i32⟩
  | .hbm, ⟨43, _⟩ => ⟨S_, .i32⟩
  | .hbm, ⟨44, _⟩ => ⟨S3x3, .i32⟩
  | .hbm, ⟨45, _⟩ => ⟨S3x3, .i32⟩
  | .hbm, ⟨46, _⟩ => ⟨S3x3, .i1⟩
  | .hbm, ⟨47, _⟩ => ⟨S3x3, .f32⟩
  | .hbm, ⟨48, _⟩ => ⟨S1048576x3x3, .f32⟩
  | .hbm, ⟨49, _⟩ => ⟨S1048576x1x1, .f32⟩
  | .hbm, ⟨50, _⟩ => ⟨S1048576x1x1, .f32⟩
  | .hbm, ⟨51, _⟩ => ⟨S1048576x3x3, .f32⟩
  | .hbm, ⟨52, _⟩ => ⟨S1048576x3x3, .f32⟩
  | .hbm, ⟨53, _⟩ => ⟨S1x3x3, .f32⟩
  | .hbm, ⟨54, _⟩ => ⟨S1048576x3x3, .f32⟩
  | .hbm, ⟨55, _⟩ => ⟨S1048576x3x3, .f32⟩
  | .hbm, ⟨56, _⟩ => ⟨S1048576x1x1, .f32⟩
  | .hbm, ⟨57, _⟩ => ⟨S_, .f32⟩
  | .hbm, ⟨58, _⟩ => ⟨S1048576x1x1, .f32⟩
  | .hbm, ⟨59, _⟩ => ⟨S1048576x1x1, .f32⟩
  | .hbm, ⟨60, _⟩ => ⟨S1048576x1x1, .f32⟩
  | .hbm, ⟨61, _⟩ => ⟨S1048576x1x1, .f32⟩
  | .hbm, ⟨62, _⟩ => ⟨S1048576x3x3, .f32⟩
  | .hbm, ⟨63, _⟩ => ⟨S1048576x3x3, .f32⟩
  | .hbm, ⟨64, _⟩ => ⟨S1048576x3x3, .f32⟩
  | .hbm, ⟨65, _⟩ => ⟨S1048576x3x1, .f32⟩
  | .hbm, ⟨66, _⟩ => ⟨S1048576x3x4, .f32⟩
  | .hbm, ⟨67, _⟩ => ⟨S1x1x4, .f32⟩
  | .hbm, ⟨68, _⟩ => ⟨S1048576x1x4, .f32⟩
  | .hbm, ⟨69, _⟩ => ⟨S1048576x4x4, .f32⟩
  | .hbm, ⟨70, _⟩ => ⟨S1048576x4x4, .f32⟩
  | _, _ => ⟨S1048576x4x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_call0_v0 : Ref sig .tc := ⟨.hbm, 33, rfl⟩
abbrev main_call0_cst : Ref sig .tc := ⟨.hbm, 34, rfl⟩
abbrev main_call0_v1 : Ref sig .tc := ⟨.hbm, 35, rfl⟩
abbrev main_v28 : Ref sig .tc := ⟨.hbm, 36, rfl⟩
abbrev main_cst_1 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_2 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩

abbrev nD : Nat := 1
abbrev τ : Topo := Topo.v7x

variable {F : FTy → Type} [FloatOps F]

class Facts₀ : Prop where
  slices_S1048576x3_S1048576x1_0_0 : S1048576x3.Slices ![0, 0] S1048576x1
  shapeCasts_S1048576x1_S1048576 : S1048576x1.ShapeCasts S1048576
  bcast_S_S1048576 : S_.BroadcastsInDim S1048576 (![] : Fin 0 → Fin S1048576.rank)
  slices_S1048576x3_S1048576x1_0_1 : S1048576x3.Slices ![0, 1] S1048576x1
  slices_S1048576x3_S1048576x1_0_2 : S1048576x3.Slices ![0, 2] S1048576x1
  bcast_S1048576_S1048576x1_0 : S1048576.BroadcastsInDim S1048576x1 (![0] : Fin 1 → Fin S1048576x1.rank)
  concatenates_S1048576x1_S1048576x1_S1048576x1_S1048576x3_d1 : Shape.Concatenates [S1048576x1, S1048576x1, S1048576x1] S1048576x3 1
  bcast_S1048576x3_S1048576x1x3_0_2 : S1048576x3.BroadcastsInDim S1048576x1x3 (![0, 2] : Fin 2 → Fin S1048576x1x3.rank)
  concatenates_S1048576x1x3_S1048576x1x3_S1048576x1x3_S1048576x3x3_d1 : Shape.Concatenates [S1048576x1x3, S1048576x1x3, S1048576x1x3] S1048576x3x3 1
  reducesTo_S1048576x3_S1048576_d1 : S1048576x3.ReducesTo [1] S1048576
  h_S_ : 0 < S_.numel
  bcast_S1048576_S1048576x1x1_0 : S1048576.BroadcastsInDim S1048576x1x1 (![0] : Fin 1 → Fin S1048576x1x1.rank)
  bcast_S_S3x3 : S_.BroadcastsInDim S3x3 (![] : Fin 0 → Fin S3x3.rank)
  bcast_S1048576x1x1_S1048576x3x3_0_1_2 : S1048576x1x1.BroadcastsInDim S1048576x3x3 (![0, 1, 2] : Fin 3 → Fin S1048576x3x3.rank)
  bcast_S3x3_S1x3x3_1_2 : S3x3.BroadcastsInDim S1x3x3 (![1, 2] : Fin 2 → Fin S1x3x3.rank)
  bcast_S1x3x3_S1048576x3x3_0_1_2 : S1x3x3.BroadcastsInDim S1048576x3x3 (![0, 1, 2] : Fin 3 → Fin S1048576x3x3.rank)
  bcast_S_S1048576x1x1 : S_.BroadcastsInDim S1048576x1x1 (![] : Fin 0 → Fin S1048576x1x1.rank)
  bcast_S1048576x3_S1048576x3x1_0_1 : S1048576x3.BroadcastsInDim S1048576x3x1 (![0, 1] : Fin 2 → Fin S1048576x3x1.rank)
  concatenates_S1048576x3x3_S1048576x3x1_S1048576x3x4_d2 : Shape.Concatenates [S1048576x3x3, S1048576x3x1] S1048576x3x4 2
  bcast_S4_S1x1x4_2 : S4.BroadcastsInDim S1x1x4 (![2] : Fin 1 → Fin S1x1x4.rank)
  bcast_S1x1x4_S1048576x1x4_0_1_2 : S1x1x4.BroadcastsInDim S1048576x1x4 (![0, 1, 2] : Fin 3 → Fin S1048576x1x4.rank)
  concatenates_S1048576x3x4_S1048576x1x4_S1048576x4x4_d1 : Shape.Concatenates [S1048576x3x4, S1048576x1x4] S1048576x4x4 1
  dot_S1048576x3x3_S1048576x3x3_S1048576x3x3_2_1_1_2_0_0_wf : DotDims.WF S1048576x3x3 S1048576x3x3 S1048576x3x3 [2] [1] [1] [2] [0] [0]
  dot_S1048576x4x4_S1048576x4x4_S1048576x4x4_2_1_1_2_0_0_wf : DotDims.WF S1048576x4x4 S1048576x4x4 S1048576x4x4 [2] [1] [1] [2] [0] [0]

variable [Facts₀]

def dot_S1048576x3x3_S1048576x3x3_S1048576x3x3_2_1_1_2_0_0 : DotDims S1048576x3x3 S1048576x3x3 S1048576x3x3 where
  lhsContracting := [2]
  rhsContracting := [1]
  lhsNonContracting := [1]
  rhsNonContracting := [2]
  lhsBatch := [0]
  rhsBatch := [0]
  wf := dot_S1048576x3x3_S1048576x3x3_S1048576x3x3_2_1_1_2_0_0_wf
def dot_S1048576x4x4_S1048576x4x4_S1048576x4x4_2_1_1_2_0_0 : DotDims S1048576x4x4 S1048576x4x4 S1048576x4x4 where
  lhsContracting := [2]
  rhsContracting := [1]
  lhsNonContracting := [1]
  rhsNonContracting := [2]
  lhsBatch := [0]
  rhsBatch := [0]
  wf := dot_S1048576x4x4_S1048576x4x4_S1048576x4x4_2_1_1_2_0_0_wf

class Facts : Prop extends Facts₀ where

variable [Facts]
-- ==== Proof.KLayout.lean ====
/-
  Layout steps of the kernel body, read at coordinates. The body works on "planes": vectors of one entry per row of
  the block. A plane is row `r` of a [R, 16384] array cut out as a [1, 16384] slab and flattened; the sixteen result
  planes are stacked into a [16, 16384] array and transposed to [16384, 16], so entry `(p, q)` of what is stored is
  plane `q` at row `p`.
-/
import proofs.«122514_j21268678050229_2_alg».proof.Proof.Gen.KernelIdeal.Skeleton
import Idealize.ShloMosaic.Lib.Pipeline.Value
import Idealize.ShloMosaic.Lib.ValueLayout
import Idealize.ShloMosaic.Lib.ValueIdx

noncomputable section

namespace Cert.KernelIdeal.Hand

open Cert.KernelIdeal Cert.KernelIdeal.Gen Idealize.ShloMosaic Idealize.ShloMosaic.ValueIdx

/-- Row `r` of a [R, 16384] array, cut out as a [1, 16384] slab and flattened, reads the array at `(r, p)`. -/
theorem row_apply {R : Nat} (off : Fin 2 → Nat) (v : (⟨2, ![R, 16384]⟩ : Shape).Idx → EReal)
    (h : (⟨2, ![R, 16384]⟩ : Shape).Slices off S1x16384) (h' : S1x16384.ShapeCasts S16384)
    (r : Fin R) (hr : off = ![r.val, 0]) (p : Fin 16384) :
    shapeCast S16384 (extractStridedSlice S1x16384 off v h) h' (ix1 p) = v (ix2 r p) := by
  subst hr
  rw [shapeCast_1a_a_apply]
  exact extractStridedSlice_apply _ v h _ _ (fun a => match a with
    | ⟨0, _⟩ => rfl
    | ⟨1, _⟩ => (Nat.zero_add _).symm)

/-- The block transposed: entry `(r, p)` of the [16, 16384] view is entry `(p, r)` of the [16384, 16] block. -/
theorem pay6_apply (x0 : Vec Ideal S16384x16 .f32) (r : Fin 16) (p : Fin 16384) :
    k0_pay6 x0 (ix2 r p) = x0 (ix2 p r) := by
  unfold k0_pay6
  dsimp only
  rw [transpose_ix2_apply, shapeCast_self]

/-- Sixteen planes stacked and transposed: entry `(p, q)` is plane `q` at `p`. -/
theorem stack_apply (v : Fin 16 → FVec Ideal S16384 .f32) (p : Fin 16384) (q : Fin 16) :
    k0_pay3 (v 0) (v 1) (v 2) (v 3) (v 4) (v 5) (v 6) (v 7) (v 8) (v 9) (v 10) (v 11) (v 12) (v 13) (v 14) (v 15)
      (ix2 p q) = v q (ix1 p) := by
  unfold k0_pay3
  dsimp only
  rw [transpose_ix2_apply]
  refine (concatenate_ofFn_unit_apply (t := S16x16384) (s₁ := S1x16384) (0 : Fin 2)
    (fun n : Fin 16 => shapeCast S1x16384 (v n) shapeCasts_S16384_S1x16384) _ rfl rfl (ix2 q p) q rfl (ix2 0 p)
    (fun b hb => match b, hb with
      | ⟨0, _⟩, hb => absurd rfl hb
      | ⟨1, _⟩, _ => rfl)).trans ?_
  exact shapeCast_a_1a_apply _ _ 0 p

end Cert.KernelIdeal.Hand

end
-- ==== Proof.Spec.lean ====
/-
  One camera pose per row. A row holds an axis-angle vector `v = (x, y, z)`, a translation `w` and a 4×4 pose
  matrix `P`. With `θ = |v| + ε`, `a = sin θ / θ`, `b = (1 - cos θ) / θ²` and `K` the skew-symmetric matrix of
  `v`, the rotation is Rodrigues' `R = I + a·K + b·K²`, the camera matrix is `C = [R | w; 0 0 0 1]` and the row's
  result is the product `C · P`.

  The same value is written here in two arrangements, both over the extended reals.
  * Entry by entry (`camK`, `mulK`, `poseK`): `K²` spelt through `K² = v vᵀ - |v|² I`, a negation spelt
    `0 - x`, the squared length summed left to right, the product's four terms added left to right.
  * With sums (`skew`, `rotR`, `camR`, `poseR`): `K` a literal matrix, `K²` and `C · P` sums over an index,
    the squared length a sum over the three coordinates started from the zero word, the identity a Kronecker delta.
  The float words `0`, `1` and `ε = f32(1e-15)` stay as their words: both arrangements use the same ones.
-/
import Idealize.ShloMosaic.PureOps.Ideal
import Idealize.ShloMosaic.Lib.ValueIdx

noncomputable section

namespace Cert.Pose

open Idealize.ShloMosaic Idealize.ShloMosaic.ValueIdx

/-- The pose arrays' shape, rows × 4 × 4. -/
abbrev SP : Shape := ⟨3, ![1048576, 4, 4]⟩
/-- The vector arrays' shape, rows × 3. -/
abbrev SV : Shape := ⟨2, ![1048576, 3]⟩

/-- The words of 0, 1 and ε, read as extended reals. -/
def zeroW : EReal := Ideal.ofBits .f32 0x00000000#32
def oneW : EReal := Ideal.ofBits .f32 0x3F800000#32
def epsW : EReal := Ideal.ofBits .f32 0x26901D7D#32

/-- `sin θ / θ`. -/
def sinc (θ : EReal) : EReal := Ideal.div (Ideal.sin θ) θ
/-- `(1 - cos θ) / θ²`. -/
def cosc (θ : EReal) : EReal := Ideal.div (oneW - Ideal.cos θ) (θ * θ)

/-! ## Entry by entry -/

/-- `|v|²`, summed left to right. -/
def sqLen (x y z : EReal) : EReal := (x * x + y * y) + z * z
/-- `θ = |v| + ε`. -/
def angleK (x y z : EReal) : EReal := Ideal.sqrt (sqLen x y z) + epsW

/-- The camera matrix, each entry written out, `K²` through `v vᵀ - |v|² I`. -/
def camK (x y z t0 t1 t2 : EReal) : Fin 4 → Fin 4 → EReal :=
  ![![oneW + cosc (angleK x y z) * (x * x - sqLen x y z),
      sinc (angleK x y z) * (zeroW - z) + cosc (angleK x y z) * (x * y),
      sinc (angleK x y z) * y + cosc (angleK x y z) * (x * z), t0],
    ![sinc (angleK x y z) * z + cosc (angleK x y z) * (x * y),
      oneW + cosc (angleK x y z) * (y * y - sqLen x y z),
      sinc (angleK x y z) * (zeroW - x) + cosc (angleK x y z) * (y * z), t1],
    ![sinc (angleK x y z) * (zeroW - y) + cosc (angleK x y z) * (x * z),
      sinc (angleK x y z) * x + cosc (angleK x y z) * (y * z),
      oneW + cosc (angleK x y z) * (z * z - sqLen x y z), t2],
    ![zeroW, zeroW, zeroW, oneW]]

/-- A 4×4 product's entry, its four terms added left to right. -/
def mulK (A P : Fin 4 → Fin 4 → EReal) (i k : Fin 4) : EReal :=
  ((A i 0 * P 0 k + A i 1 * P 1 k) + A i 2 * P 2 k) + A i 3 * P 3 k

/-- Row `n`'s result at `(i, k)`, entry by entry. -/
def poseKAt (P : SP.Idx → EReal) (r t : SV.Idx → EReal) (n : Fin 1048576) (i k : Fin 4) : EReal :=
  mulK (camK (r (ix2 n 0)) (r (ix2 n 1)) (r (ix2 n 2)) (t (ix2 n 0)) (t (ix2 n 1)) (t (ix2 n 2)))
    (fun a b => P (ix3 n a b)) i k

/-- The whole result array, entry by entry. -/
def poseK (P : SP.Idx → EReal) (r t : SV.Idx → EReal) : SP.Idx → EReal :=
  fun j => poseKAt P r t (j 0) (j 1) (j 2)

/-! ## With sums -/

/-- The skew-symmetric matrix of `(x, y, z)`. -/
def skew (x y z : EReal) : Fin 3 → Fin 3 → EReal :=
  ![![zeroW, -z, y], ![z, zeroW, -x], ![-y, x, zeroW]]

/-- `θ = |v| + ε`, the squared length a sum started from the zero word. -/
def angleR (v : Fin 3 → EReal) : EReal := Ideal.sqrt (zeroW + ∑ k : Fin 3, v k * v k) + epsW

/-- The identity matrix's entry. -/
def eye3 (i j : Fin 3) : EReal := if i = j then 1 else 0

/-- Rodrigues' rotation `(I + a·K) + b·K²`, `K²` a sum. -/
def rotR (v : Fin 3 → EReal) (i j : Fin 3) : EReal :=
  (eye3 i j + sinc (angleR v) * skew (v 0) (v 1) (v 2) i j)
    + cosc (angleR v) * ∑ l : Fin 3, skew (v 0) (v 1) (v 2) i l * skew (v 0) (v 1) (v 2) l j

/-- The camera matrix `[R | w; 0 0 0 1]`. -/
def camR (v w : Fin 3 → EReal) (i j : Fin 4) : EReal :=
  if hi : i.val < 3 then
    (if hj : j.val < 3 then rotR v ⟨i.val, hi⟩ ⟨j.val, hj⟩ else w ⟨i.val, hi⟩)
  else (![zeroW, zeroW, zeroW, oneW] : Fin 4 → EReal) j

/-- Row `n`'s result at `(i, k)`, the product a sum. -/
def poseRAt (P : SP.Idx → EReal) (r t : SV.Idx → EReal) (n : Fin 1048576) (i k : Fin 4) : EReal :=
  ∑ j : Fin 4, camR (fun a => r (ix2 n a)) (fun a => t (ix2 n a)) i j * P (ix3 n j k)

/-- The whole result array, with sums. -/
def poseR (P : SP.Idx → EReal) (r t : SV.Idx → EReal) : SP.Idx → EReal :=
  fun j => poseRAt P r t (j 0) (j 1) (j 2)

theorem poseK_ix3 (P : SP.Idx → EReal) (r t : SV.Idx → EReal) (n : Fin 1048576) (i k : Fin 4) :
    poseK P r t (ix3 n i k) = poseKAt P r t n i k := rfl

theorem poseR_ix3 (P : SP.Idx → EReal) (r t : SV.Idx → EReal) (n : Fin 1048576) (i k : Fin 4) :
    poseR P r t (ix3 n i k) = poseRAt P r t n i k := rfl

end Cert.Pose

end
-- ==== Proof.KPay.lean ====
/-
  The kernel body's arithmetic, read one row at a time. With the loaded blocks `x0` (poses, [16384, 16]), `x1` (axis-angle
  vectors, [3, 16384]) and `x2` (translations, [3, 16384]) and a row `p` of the block: the coordinate planes read
  `x1 (a, p)`, `x2 (a, p)`, the squared length, the angle and the two coefficients are `Cert.Pose`'s `sqLen`, `angleK`,
  `sinc`, `cosc` of them, and result plane `4 i + k` at `p` is entry `(i, k)` of the camera matrix times the row's pose
  matrix (`mulK (camK …)`), whose `(a, b)` entry is `x0 (p, 4 a + b)`.
-/
import proofs.«122514_j21268678050229_2_alg».proof.Proof.KLayout
import proofs.«122514_j21268678050229_2_alg».proof.Proof.Spec
import Idealize.ShloMosaic.PureOps.Ideal

noncomputable section

namespace Cert.KernelIdeal.Hand

open Cert.KernelIdeal Cert.KernelIdeal.Gen Idealize.ShloMosaic Idealize.ShloMosaic.ValueIdx Cert.Pose

/-- Column `4 a + b` of a 16-column block holds entry `(a, b)` of the row's 4×4 matrix. -/
def pos (a b : Fin 4) : Fin 16 := ⟨4 * a.val + b.val, by omega⟩

section
variable (x0 : Vec Ideal S16384x16 .f32) (x1 x2 : Vec Ideal S3x16384 .f32) (p : Fin 16384)

/-! ## The coordinate planes -/

theorem pay7_apply : k0_pay7 x1 (ix1 p) = x1 (ix2 0 p) := by
  unfold k0_pay7 k0_pay4; dsimp only
  rw [row_apply ![0, 0] _ _ _ (0 : Fin 3) rfl p, shapeCast_self]
theorem pay8_apply : k0_pay8 x1 (ix1 p) = x1 (ix2 1 p) := by
  unfold k0_pay8 k0_pay4; dsimp only
  rw [row_apply ![1, 0] _ _ _ (1 : Fin 3) rfl p, shapeCast_self]
theorem pay9_apply : k0_pay9 x1 (ix1 p) = x1 (ix2 2 p) := by
  unfold k0_pay9 k0_pay4; dsimp only
  rw [row_apply ![2, 0] _ _ _ (2 : Fin 3) rfl p, shapeCast_self]
theorem pay10_apply : k0_pay10 x2 (ix1 p) = x2 (ix2 0 p) := by
  unfold k0_pay10 k0_pay5; dsimp only
  rw [row_apply ![0, 0] _ _ _ (0 : Fin 3) rfl p, shapeCast_self]
theorem pay11_apply : k0_pay11 x2 (ix1 p) = x2 (ix2 1 p) := by
  unfold k0_pay11 k0_pay5; dsimp only
  rw [row_apply ![1, 0] _ _ _ (1 : Fin 3) rfl p, shapeCast_self]
theorem pay12_apply : k0_pay12 x2 (ix1 p) = x2 (ix2 2 p) := by
  unfold k0_pay12 k0_pay5; dsimp only
  rw [row_apply ![2, 0] _ _ _ (2 : Fin 3) rfl p, shapeCast_self]

/-! ## Squared length, angle, coefficients -/

theorem pay13_apply : k0_pay13 x1 (ix1 p) = sqLen (x1 (ix2 0 p)) (x1 (ix2 1 p)) (x1 (ix2 2 p)) := by
  simp only [k0_pay13, mulf, addf, pay7_apply, pay8_apply, pay9_apply, Ideal.mulf_def, Ideal.addf_def, sqLen]

theorem pay14_apply : k0_pay14 x1 (ix1 p) = angleK (x1 (ix2 0 p)) (x1 (ix2 1 p)) (x1 (ix2 2 p)) := by
  simp only [k0_pay14, sqrt, addf, broadcast, pay13_apply, Ideal.sqrt_def, Ideal.addf_def, Ideal.ofBits_def, angleK, epsW]

theorem pay15_apply : k0_pay15 x1 (ix1 p) = sinc (angleK (x1 (ix2 0 p)) (x1 (ix2 1 p)) (x1 (ix2 2 p))) := by
  simp only [k0_pay15, sin, divf, pay14_apply, Ideal.sin_def, Ideal.divf_def, sinc]

theorem pay16_apply : k0_pay16 x1 (ix1 p) = cosc (angleK (x1 (ix2 0 p)) (x1 (ix2 1 p)) (x1 (ix2 2 p))) := by
  simp only [k0_pay16, cos, divf, subf, mulf, broadcast, pay14_apply, Ideal.cos_def, Ideal.divf_def, Ideal.subf_def,
    Ideal.mulf_def, Ideal.ofBits_def, cosc, oneW]

end

end Cert.KernelIdeal.Hand

end
-- ==== Proof.KPlanes.lean ====
/-
  The sixteen result planes of the kernel body. Plane `4 i + k` is, row by row, entry `(i, k)` of the product of the
  camera matrix with the row's pose matrix, its four terms added left to right; what the body stores is the planes
  stacked and transposed, so its entry `(p, 4 i + k)` is that product entry for row `p`.
-/
import proofs.«122514_j21268678050229_2_alg».proof.Proof.KPay

noncomputable section

namespace Cert.KernelIdeal.Hand

open Cert.KernelIdeal Cert.KernelIdeal.Gen Idealize.ShloMosaic Idealize.ShloMosaic.ValueIdx Cert.Pose

/-- Result plane 0: entry (0, 0) of the product, one value per row. -/
def plane0 (x0 : Vec Ideal S16384x16 .f32) (x1 x2 : Vec Ideal S3x16384 .f32) : FVec Ideal S16384 .f32 :=
  k0_pay34 (k0_pay6 x0) (k0_pay8 x1) (k0_pay9 x1) (k0_pay10 x2) (k0_pay15 x1) (k0_pay16 x1) (k0_pay17 x1) (k0_pay18 x1) (k0_pay24 x1) (k0_pay25 (F := Ideal))

/-- Result plane 1: entry (0, 1) of the product, one value per row. -/
def plane1 (x0 : Vec Ideal S16384x16 .f32) (x1 x2 : Vec Ideal S3x16384 .f32) : FVec Ideal S16384 .f32 :=
  k0_pay35 (k0_pay6 x0) (k0_pay8 x1) (k0_pay9 x1) (k0_pay10 x2) (k0_pay15 x1) (k0_pay16 x1) (k0_pay17 x1) (k0_pay18 x1) (k0_pay24 x1) (k0_pay25 (F := Ideal))

/-- Result plane 2: entry (0, 2) of the product, one value per row. -/
def plane2 (x0 : Vec Ideal S16384x16 .f32) (x1 x2 : Vec Ideal S3x16384 .f32) : FVec Ideal S16384 .f32 :=
  k0_pay37 (k0_pay6 x0) (k0_pay10 x2) (k0_pay24 x1) (k0_pay26 (k0_pay9 x1) (k0_pay15 x1) (k0_pay16 x1) (k0_pay17 x1) (k0_pay25 (F := Ideal))) (k0_pay27 (k0_pay8 x1) (k0_pay15 x1) (k0_pay16 x1) (k0_pay18 x1)) (k0_pay36 (k0_pay6 x0))

/-- Result plane 3: entry (0, 3) of the product, one value per row. -/
def plane3 (x0 : Vec Ideal S16384x16 .f32) (x1 x2 : Vec Ideal S3x16384 .f32) : FVec Ideal S16384 .f32 :=
  k0_pay38 (k0_pay6 x0) (k0_pay10 x2) (k0_pay24 x1) (k0_pay26 (k0_pay9 x1) (k0_pay15 x1) (k0_pay16 x1) (k0_pay17 x1) (k0_pay25 (F := Ideal))) (k0_pay27 (k0_pay8 x1) (k0_pay15 x1) (k0_pay16 x1) (k0_pay18 x1))

/-- Result plane 4: entry (1, 0) of the product, one value per row. -/
def plane4 (x0 : Vec Ideal S16384x16 .f32) (x1 x2 : Vec Ideal S3x16384 .f32) : FVec Ideal S16384 .f32 :=
  k0_pay39 (k0_pay6 x0) (k0_pay11 x2) (k0_pay28 (k0_pay9 x1) (k0_pay15 x1) (k0_pay16 x1) (k0_pay17 x1)) (k0_pay29 (k0_pay16 x1) (k0_pay19 x1) (k0_pay22 (F := Ideal))) (k0_pay30 (k0_pay7 x1) (k0_pay15 x1) (k0_pay16 x1) (k0_pay20 x1))

/-- Result plane 5: entry (1, 1) of the product, one value per row. -/
def plane5 (x0 : Vec Ideal S16384x16 .f32) (x1 x2 : Vec Ideal S3x16384 .f32) : FVec Ideal S16384 .f32 :=
  k0_pay40 (k0_pay6 x0) (k0_pay11 x2) (k0_pay28 (k0_pay9 x1) (k0_pay15 x1) (k0_pay16 x1) (k0_pay17 x1)) (k0_pay29 (k0_pay16 x1) (k0_pay19 x1) (k0_pay22 (F := Ideal))) (k0_pay30 (k0_pay7 x1) (k0_pay15 x1) (k0_pay16 x1) (k0_pay20 x1))

/-- Result plane 6: entry (1, 2) of the product, one value per row. -/
def plane6 (x0 : Vec Ideal S16384x16 .f32) (x1 x2 : Vec Ideal S3x16384 .f32) : FVec Ideal S16384 .f32 :=
  k0_pay42 (k0_pay6 x0) (k0_pay11 x2) (k0_pay28 (k0_pay9 x1) (k0_pay15 x1) (k0_pay16 x1) (k0_pay17 x1)) (k0_pay29 (k0_pay16 x1) (k0_pay19 x1) (k0_pay22 (F := Ideal))) (k0_pay30 (k0_pay7 x1) (k0_pay15 x1) (k0_pay16 x1) (k0_pay20 x1)) (k0_pay41 (k0_pay6 x0))

/-- Result plane 7: entry (1, 3) of the product, one value per row. -/
def plane7 (x0 : Vec Ideal S16384x16 .f32) (x1 x2 : Vec Ideal S3x16384 .f32) : FVec Ideal S16384 .f32 :=
  k0_pay43 (k0_pay6 x0) (k0_pay11 x2) (k0_pay28 (k0_pay9 x1) (k0_pay15 x1) (k0_pay16 x1) (k0_pay17 x1)) (k0_pay29 (k0_pay16 x1) (k0_pay19 x1) (k0_pay22 (F := Ideal))) (k0_pay30 (k0_pay7 x1) (k0_pay15 x1) (k0_pay16 x1) (k0_pay20 x1))

/-- Result plane 8: entry (2, 0) of the product, one value per row. -/
def plane8 (x0 : Vec Ideal S16384x16 .f32) (x1 x2 : Vec Ideal S3x16384 .f32) : FVec Ideal S16384 .f32 :=
  k0_pay44 (k0_pay6 x0) (k0_pay12 x2) (k0_pay31 (k0_pay8 x1) (k0_pay15 x1) (k0_pay16 x1) (k0_pay18 x1)) (k0_pay32 (k0_pay7 x1) (k0_pay15 x1) (k0_pay16 x1) (k0_pay20 x1)) (k0_pay33 (k0_pay16 x1) (k0_pay21 x1) (k0_pay22 (F := Ideal)))

/-- Result plane 9: entry (2, 1) of the product, one value per row. -/
def plane9 (x0 : Vec Ideal S16384x16 .f32) (x1 x2 : Vec Ideal S3x16384 .f32) : FVec Ideal S16384 .f32 :=
  k0_pay45 (k0_pay6 x0) (k0_pay12 x2) (k0_pay31 (k0_pay8 x1) (k0_pay15 x1) (k0_pay16 x1) (k0_pay18 x1)) (k0_pay32 (k0_pay7 x1) (k0_pay15 x1) (k0_pay16 x1) (k0_pay20 x1)) (k0_pay33 (k0_pay16 x1) (k0_pay21 x1) (k0_pay22 (F := Ideal)))

/-- Result plane 10: entry (2, 2) of the product, one value per row. -/
def plane10 (x0 : Vec Ideal S16384x16 .f32) (x1 x2 : Vec Ideal S3x16384 .f32) : FVec Ideal S16384 .f32 :=
  k0_pay47 (k0_pay6 x0) (k0_pay12 x2) (k0_pay31 (k0_pay8 x1) (k0_pay15 x1) (k0_pay16 x1) (k0_pay18 x1)) (k0_pay32 (k0_pay7 x1) (k0_pay15 x1) (k0_pay16 x1) (k0_pay20 x1)) (k0_pay33 (k0_pay16 x1) (k0_pay21 x1) (k0_pay22 (F := Ideal))) (k0_pay46 (k0_pay6 x0))

/-- Result plane 11: entry (2, 3) of the product, one value per row. -/
def plane11 (x0 : Vec Ideal S16384x16 .f32) (x1 x2 : Vec Ideal S3x16384 .f32) : FVec Ideal S16384 .f32 :=
  k0_pay48 (k0_pay6 x0) (k0_pay12 x2) (k0_pay31 (k0_pay8 x1) (k0_pay15 x1) (k0_pay16 x1) (k0_pay18 x1)) (k0_pay32 (k0_pay7 x1) (k0_pay15 x1) (k0_pay16 x1) (k0_pay20 x1)) (k0_pay33 (k0_pay16 x1) (k0_pay21 x1) (k0_pay22 (F := Ideal)))

/-- Result plane 12: entry (3, 0) of the product, one value per row. -/
def plane12 (x0 : Vec Ideal S16384x16 .f32) (x1 x2 : Vec Ideal S3x16384 .f32) : FVec Ideal S16384 .f32 :=
  k0_pay49 (k0_pay6 x0) (k0_pay22 (F := Ideal)) (k0_pay23 (F := Ideal))

/-- Result plane 13: entry (3, 1) of the product, one value per row. -/
def plane13 (x0 : Vec Ideal S16384x16 .f32) (x1 x2 : Vec Ideal S3x16384 .f32) : FVec Ideal S16384 .f32 :=
  k0_pay50 (k0_pay6 x0) (k0_pay22 (F := Ideal)) (k0_pay23 (F := Ideal))

/-- Result plane 14: entry (3, 2) of the product, one value per row. -/
def plane14 (x0 : Vec Ideal S16384x16 .f32) (x1 x2 : Vec Ideal S3x16384 .f32) : FVec Ideal S16384 .f32 :=
  k0_pay1 (k0_pay6 x0) (k0_pay22 (F := Ideal)) (k0_pay23 (F := Ideal)) (k0_pay51 (k0_pay6 x0))

/-- Result plane 15: entry (3, 3) of the product, one value per row. -/
def plane15 (x0 : Vec Ideal S16384x16 .f32) (x1 x2 : Vec Ideal S3x16384 .f32) : FVec Ideal S16384 .f32 :=
  k0_pay2 (k0_pay6 x0) (k0_pay22 (F := Ideal)) (k0_pay23 (F := Ideal))

/-- What the body stores, as a function of the three loaded blocks: the planes stacked and transposed. -/
def bodyVal (x0 : Vec Ideal S16384x16 .f32) (x1 x2 : Vec Ideal S3x16384 .f32) : Vec Ideal S16384x16 .f32 :=
  k0_pay3 (plane0 x0 x1 x2) (plane1 x0 x1 x2) (plane2 x0 x1 x2) (plane3 x0 x1 x2) (plane4 x0 x1 x2) (plane5 x0 x1 x2) (plane6 x0 x1 x2) (plane7 x0 x1 x2) (plane8 x0 x1 x2) (plane9 x0 x1 x2) (plane10 x0 x1 x2) (plane11 x0 x1 x2) (plane12 x0 x1 x2) (plane13 x0 x1 x2) (plane14 x0 x1 x2) (plane15 x0 x1 x2)

section
variable (x0 : Vec Ideal S16384x16 .f32) (x1 x2 : Vec Ideal S3x16384 .f32) (p : Fin 16384)

/-- Entry `(p, q)` of the stored value is plane `q` at row `p`. -/
theorem bodyVal_plane (q : Fin 16) : bodyVal x0 x1 x2 (ix2 p q)
    = (![plane0 x0 x1 x2, plane1 x0 x1 x2, plane2 x0 x1 x2, plane3 x0 x1 x2, plane4 x0 x1 x2, plane5 x0 x1 x2, plane6 x0 x1 x2, plane7 x0 x1 x2, plane8 x0 x1 x2, plane9 x0 x1 x2, plane10 x0 x1 x2, plane11 x0 x1 x2, plane12 x0 x1 x2, plane13 x0 x1 x2, plane14 x0 x1 x2, plane15 x0 x1 x2] : Fin 16 → FVec Ideal S16384 .f32) q (ix1 p) :=
  stack_apply ![plane0 x0 x1 x2, plane1 x0 x1 x2, plane2 x0 x1 x2, plane3 x0 x1 x2, plane4 x0 x1 x2, plane5 x0 x1 x2, plane6 x0 x1 x2, plane7 x0 x1 x2, plane8 x0 x1 x2, plane9 x0 x1 x2, plane10 x0 x1 x2, plane11 x0 x1 x2, plane12 x0 x1 x2, plane13 x0 x1 x2, plane14 x0 x1 x2, plane15 x0 x1 x2] p q

/-- Open a plane down to the row's scalars: the pointwise operations, the rows of the transposed block, the
    coordinate planes, the squared length, the angle and the two coefficients. -/
local macro "plane_simp " pl:ident : tactic => `(tactic|
  simp only [$pl:ident, k0_pay34, k0_pay35, k0_pay37, k0_pay38, k0_pay39, k0_pay40, k0_pay42, k0_pay43, k0_pay44, k0_pay45, k0_pay47, k0_pay48, k0_pay49, k0_pay50, k0_pay1, k0_pay2, k0_pay36, k0_pay41, k0_pay46, k0_pay51, k0_pay26, k0_pay27, k0_pay28, k0_pay29, k0_pay30, k0_pay31, k0_pay32, k0_pay33, k0_pay17, k0_pay18, k0_pay19, k0_pay20, k0_pay21, k0_pay22, k0_pay23, k0_pay24, k0_pay25,
    mulf, addf, subf, broadcast,
    row_apply ![0, 0] (k0_pay6 x0) _ _ (0 : Fin 16) rfl p,
    row_apply ![1, 0] (k0_pay6 x0) _ _ (1 : Fin 16) rfl p,
    row_apply ![2, 0] (k0_pay6 x0) _ _ (2 : Fin 16) rfl p,
    row_apply ![3, 0] (k0_pay6 x0) _ _ (3 : Fin 16) rfl p,
    row_apply ![4, 0] (k0_pay6 x0) _ _ (4 : Fin 16) rfl p,
    row_apply ![5, 0] (k0_pay6 x0) _ _ (5 : Fin 16) rfl p,
    row_apply ![6, 0] (k0_pay6 x0) _ _ (6 : Fin 16) rfl p,
    row_apply ![7, 0] (k0_pay6 x0) _ _ (7 : Fin 16) rfl p,
    row_apply ![8, 0] (k0_pay6 x0) _ _ (8 : Fin 16) rfl p,
    row_apply ![9, 0] (k0_pay6 x0) _ _ (9 : Fin 16) rfl p,
    row_apply ![10, 0] (k0_pay6 x0) _ _ (10 : Fin 16) rfl p,
    row_apply ![11, 0] (k0_pay6 x0) _ _ (11 : Fin 16) rfl p,
    row_apply ![12, 0] (k0_pay6 x0) _ _ (12 : Fin 16) rfl p,
    row_apply ![13, 0] (k0_pay6 x0) _ _ (13 : Fin 16) rfl p,
    row_apply ![14, 0] (k0_pay6 x0) _ _ (14 : Fin 16) rfl p,
    row_apply ![15, 0] (k0_pay6 x0) _ _ (15 : Fin 16) rfl p,
    pay6_apply, pay7_apply, pay8_apply, pay9_apply, pay10_apply, pay11_apply, pay12_apply, pay13_apply, pay15_apply,
    pay16_apply, Ideal.mulf_def, Ideal.addf_def, Ideal.subf_def, Ideal.ofBits_def])

theorem plane0_apply : plane0 x0 x1 x2 (ix1 p)
    = mulK (camK (x1 (ix2 0 p)) (x1 (ix2 1 p)) (x1 (ix2 2 p)) (x2 (ix2 0 p)) (x2 (ix2 1 p)) (x2 (ix2 2 p)))
        (fun a b => x0 (ix2 p (pos a b))) 0 0 := by
  plane_simp plane0
  rfl
theorem plane1_apply : plane1 x0 x1 x2 (ix1 p)
    = mulK (camK (x1 (ix2 0 p)) (x1 (ix2 1 p)) (x1 (ix2 2 p)) (x2 (ix2 0 p)) (x2 (ix2 1 p)) (x2 (ix2 2 p)))
        (fun a b => x0 (ix2 p (pos a b))) 0 1 := by
  plane_simp plane1
  rfl
theorem plane2_apply : plane2 x0 x1 x2 (ix1 p)
    = mulK (camK (x1 (ix2 0 p)) (x1 (ix2 1 p)) (x1 (ix2 2 p)) (x2 (ix2 0 p)) (x2 (ix2 1 p)) (x2 (ix2 2 p)))
        (fun a b => x0 (ix2 p (pos a b))) 0 2 := by
  plane_simp plane2
  rfl
theorem plane3_apply : plane3 x0 x1 x2 (ix1 p)
    = mulK (camK (x1 (ix2 0 p)) (x1 (ix2 1 p)) (x1 (ix2 2 p)) (x2 (ix2 0 p)) (x2 (ix2 1 p)) (x2 (ix2 2 p)))
        (fun a b => x0 (ix2 p (pos a b))) 0 3 := by
  plane_simp plane3
  rfl
theorem plane4_apply : plane4 x0 x1 x2 (ix1 p)
    = mulK (camK (x1 (ix2 0 p)) (x1 (ix2 1 p)) (x1 (ix2 2 p)) (x2 (ix2 0 p)) (x2 (ix2 1 p)) (x2 (ix2 2 p)))
        (fun a b => x0 (ix2 p (pos a b))) 1 0 := by
  plane_simp plane4
  rfl
theorem plane5_apply : plane5 x0 x1 x2 (ix1 p)
    = mulK (camK (x1 (ix2 0 p)) (x1 (ix2 1 p)) (x1 (ix2 2 p)) (x2 (ix2 0 p)) (x2 (ix2 1 p)) (x2 (ix2 2 p)))
        (fun a b => x0 (ix2 p (pos a b))) 1 1 := by
  plane_simp plane5
  rfl
theorem plane6_apply : plane6 x0 x1 x2 (ix1 p)
    = mulK (camK (x1 (ix2 0 p)) (x1 (ix2 1 p)) (x1 (ix2 2 p)) (x2 (ix2 0 p)) (x2 (ix2 1 p)) (x2 (ix2 2 p)))
        (fun a b => x0 (ix2 p (pos a b))) 1 2 := by
  plane_simp plane6
  rfl
theorem plane7_apply : plane7 x0 x1 x2 (ix1 p)
    = mulK (camK (x1 (ix2 0 p)) (x1 (ix2 1 p)) (x1 (ix2 2 p)) (x2 (ix2 0 p)) (x2 (ix2 1 p)) (x2 (ix2 2 p)))
        (fun a b => x0 (ix2 p (pos a b))) 1 3 := by
  plane_simp plane7
  rfl
theorem plane8_apply : plane8 x0 x1 x2 (ix1 p)
    = mulK (camK (x1 (ix2 0 p)) (x1 (ix2 1 p)) (x1 (ix2 2 p)) (x2 (ix2 0 p)) (x2 (ix2 1 p)) (x2 (ix2 2 p)))
        (fun a b => x0 (ix2 p (pos a b))) 2 0 := by
  plane_simp plane8
  rfl
theorem plane9_apply : plane9 x0 x1 x2 (ix1 p)
    = mulK (camK (x1 (ix2 0 p)) (x1 (ix2 1 p)) (x1 (ix2 2 p)) (x2 (ix2 0 p)) (x2 (ix2 1 p)) (x2 (ix2 2 p)))
        (fun a b => x0 (ix2 p (pos a b))) 2 1 := by
  plane_simp plane9
  rfl
theorem plane10_apply : plane10 x0 x1 x2 (ix1 p)
    = mulK (camK (x1 (ix2 0 p)) (x1 (ix2 1 p)) (x1 (ix2 2 p)) (x2 (ix2 0 p)) (x2 (ix2 1 p)) (x2 (ix2 2 p)))
        (fun a b => x0 (ix2 p (pos a b))) 2 2 := by
  plane_simp plane10
  rfl
theorem plane11_apply : plane11 x0 x1 x2 (ix1 p)
    = mulK (camK (x1 (ix2 0 p)) (x1 (ix2 1 p)) (x1 (ix2 2 p)) (x2 (ix2 0 p)) (x2 (ix2 1 p)) (x2 (ix2 2 p)))
        (fun a b => x0 (ix2 p (pos a b))) 2 3 := by
  plane_simp plane11
  rfl
theorem plane12_apply : plane12 x0 x1 x2 (ix1 p)
    = mulK (camK (x1 (ix2 0 p)) (x1 (ix2 1 p)) (x1 (ix2 2 p)) (x2 (ix2 0 p)) (x2 (ix2 1 p)) (x2 (ix2 2 p)))
        (fun a b => x0 (ix2 p (pos a b))) 3 0 := by
  plane_simp plane12
  rfl
theorem plane13_apply : plane13 x0 x1 x2 (ix1 p)
    = mulK (camK (x1 (ix2 0 p)) (x1 (ix2 1 p)) (x1 (ix2 2 p)) (x2 (ix2 0 p)) (x2 (ix2 1 p)) (x2 (ix2 2 p)))
        (fun a b => x0 (ix2 p (pos a b))) 3 1 := by
  plane_simp plane13
  rfl
theorem plane14_apply : plane14 x0 x1 x2 (ix1 p)
    = mulK (camK (x1 (ix2 0 p)) (x1 (ix2 1 p)) (x1 (ix2 2 p)) (x2 (ix2 0 p)) (x2 (ix2 1 p)) (x2 (ix2 2 p)))
        (fun a b => x0 (ix2 p (pos a b))) 3 2 := by
  plane_simp plane14
  rfl
theorem plane15_apply : plane15 x0 x1 x2 (ix1 p)
    = mulK (camK (x1 (ix2 0 p)) (x1 (ix2 1 p)) (x1 (ix2 2 p)) (x2 (ix2 0 p)) (x2 (ix2 1 p)) (x2 (ix2 2 p)))
        (fun a b => x0 (ix2 p (pos a b))) 3 3 := by
  plane_simp plane15
  rfl

end

end Cert.KernelIdeal.Hand

end
-- ==== Proof.KBlocks.lean ====
/-
  From the body's blocks to the whole result array. Grid point `t` works on rows `16384 t … 16384 t + 16383`: the pose
  window's and the result window's block `t` are those rows of their [1048576, 16] arrays, the two vector windows'
  block `t` those columns of their [3, 1048576] arrays. So what point `t` writes back is block `t` of ONE function `G`
  of the three arrays the region finds — entry `(n, q)` the product entry `(q / 4, q % 4)` of row `n` — and since
  the 64 blocks tile the result array, the array ends holding `G`.
-/
import proofs.«122514_j21268678050229_2_alg».proof.Proof.Gen.KernelIdeal.Frame
import proofs.«122514_j21268678050229_2_alg».proof.Proof.KPlanes
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx Cert.Pose
open Idealize.ShloMosaic.Pipeline (Dat)

/-- The row and the column of the 4×4 entry that column `q` of a 16-column array holds. -/
def rowOf (q : Fin 16) : Fin 4 := ⟨q.val / 4, by omega⟩
def colOf (q : Fin 16) : Fin 4 := ⟨q.val % 4, by omega⟩

/-- Entry `(p, q)` of what the body stores: the product entry `(q / 4, q % 4)` of row `p`. -/
theorem bodyVal_apply (x0 : Vec Ideal S16384x16 .f32) (x1 x2 : Vec Ideal S3x16384 .f32) (p : Fin 16384) (q : Fin 16) :
    bodyVal x0 x1 x2 (ix2 p q)
      = mulK (camK (x1 (ix2 0 p)) (x1 (ix2 1 p)) (x1 (ix2 2 p)) (x2 (ix2 0 p)) (x2 (ix2 1 p)) (x2 (ix2 2 p)))
          (fun a b => x0 (ix2 p (pos a b))) (rowOf q) (colOf q) := by
  rw [bodyVal_plane]
  fin_cases q
  exacts [plane0_apply x0 x1 x2 p, plane1_apply x0 x1 x2 p, plane2_apply x0 x1 x2 p, plane3_apply x0 x1 x2 p, plane4_apply x0 x1 x2 p, plane5_apply x0 x1 x2 p, plane6_apply x0 x1 x2 p, plane7_apply x0 x1 x2 p, plane8_apply x0 x1 x2 p, plane9_apply x0 x1 x2 p, plane10_apply x0 x1 x2 p, plane11_apply x0 x1 x2 p, plane12_apply x0 x1 x2 p, plane13_apply x0 x1 x2 p, plane14_apply x0 x1 x2 p, plane15_apply x0 x1 x2 p]

/-- The result array as one function of the flattened pose array `A0` ([1048576, 16]) and the transposed vector
    arrays `A1`, `A2` ([3, 1048576]). -/
def GAt (A0 : S1048576x16.Idx → EReal) (A1 A2 : S3x1048576.Idx → EReal) (n : Fin 1048576) (q : Fin 16) : EReal :=
  mulK (camK (A1 (ix2 0 n)) (A1 (ix2 1 n)) (A1 (ix2 2 n)) (A2 (ix2 0 n)) (A2 (ix2 1 n)) (A2 (ix2 2 n)))
    (fun a b => A0 (ix2 n (pos a b))) (rowOf q) (colOf q)
def G (A0 : S1048576x16.Idx → EReal) (A1 A2 : S3x1048576.Idx → EReal) : S1048576x16.Idx → EReal :=
  fun j => GAt A0 A1 A2 (j 0) (j 1)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: point `t` takes block `t` along the row axis of the pose and result arrays and
    along the column axis of the two vector arrays, block 0 on the other axis. -/
theorem idx_facts : ∀ t : Fin cfg0.N, win0_0.index t (0 : Fin 2) = t.val ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = t.val ∧ win0_3.index t (1 : Fin 2) = 0 :=
  (by decide +kernel : ∀ t : Fin grid0.N, _)

/-- The pose window's block `t` at `(p, b)` is the array at row `16384 t + p`. -/
theorem iblk0_apply (c : Dev nD) (t : Fin cfg0.N) (p : Fin 16384) (b : Fin 16) (n : Fin 1048576)
    (hn : n.val = 16384 * t.val + p.val) :
    (iblk m c 0 t : Vec Ideal S16384x16 .f32) (ix2 p b) = (V m c main_v0 : S1048576x16.Idx → EReal) (ix2 n b) := by
  obtain ⟨e00, e01, e10, e11, e20, e21, e30, e31⟩ := idx_facts t
  unfold iblk
  rw [View.read_apply]
  show (V m c main_v0 : S1048576x16.Idx → EReal) _ = _
  refine congrArg _ (funext fun a => Fin.ext ?_)
  match a with
  | ⟨0, _⟩ => show win0_0.index t (0 : Fin 2) * 16384 + 1 * p.val = n.val; rw [e00, hn]; omega
  | ⟨1, _⟩ => show win0_0.index t (1 : Fin 2) * 16 + 1 * b.val = b.val; rw [e01]; omega

/-- The axis-angle window's block `t` at `(a, p)` is the array at column `16384 t + p`. -/
theorem iblk1_apply (c : Dev nD) (t : Fin cfg0.N) (a : Fin 3) (p : Fin 16384) (n : Fin 1048576)
    (hn : n.val = 16384 * t.val + p.val) :
    (iblk m c 1 t : Vec Ideal S3x16384 .f32) (ix2 a p) = (V m c main_v1 : S3x1048576.Idx → EReal) (ix2 a n) := by
  obtain ⟨e00, e01, e10, e11, e20, e21, e30, e31⟩ := idx_facts t
  unfold iblk
  rw [View.read_apply]
  show (V m c main_v1 : S3x1048576.Idx → EReal) _ = _
  refine congrArg _ (funext fun b => Fin.ext ?_)
  match b with
  | ⟨0, _⟩ => show win0_1.index t (0 : Fin 2) * 3 + 1 * a.val = a.val; rw [e10]; omega
  | ⟨1, _⟩ => show win0_1.index t (1 : Fin 2) * 16384 + 1 * p.val = n.val; rw [e11, hn]; omega

/-- The translation window's block `t` at `(a, p)` is the array at column `16384 t + p`. -/
theorem iblk2_apply (c : Dev nD) (t : Fin cfg0.N) (a : Fin 3) (p : Fin 16384) (n : Fin 1048576)
    (hn : n.val = 16384 * t.val + p.val) :
    (iblk m c 2 t : Vec Ideal S3x16384 .f32) (ix2 a p) = (V m c main_v2 : S3x1048576.Idx → EReal) (ix2 a n) := by
  obtain ⟨e00, e01, e10, e11, e20, e21, e30, e31⟩ := idx_facts t
  unfold iblk
  rw [View.read_apply]
  show (V m c main_v2 : S3x1048576.Idx → EReal) _ = _
  refine congrArg _ (funext fun b => Fin.ext ?_)
  match b with
  | ⟨0, _⟩ => show win0_2.index t (0 : Fin 2) * 3 + 1 * a.val = a.val; rw [e20]; omega
  | ⟨1, _⟩ => show win0_2.index t (1 : Fin 2) * 16384 + 1 * p.val = n.val; rw [e21, hn]; omega

/-- The result window's block `t` places its entry `(p, q)` at row `16384 t + p`, column `q`. -/
theorem emb3_apply (t : Fin cfg0.N) (p : Fin 16384) (q : Fin 16) (n : Fin 1048576) (hn : n.val = 16384 * t.val + p.val) :
    ((cfg0.win 3).blk t).view.emb (ix2 p q) = (ix2 n q : S1048576x16.Idx) := by
  obtain ⟨e00, e01, e10, e11, e20, e21, e30, e31⟩ := idx_facts t
  refine funext fun a => Fin.ext ?_
  match a with
  | ⟨0, _⟩ => show win0_3.index t (0 : Fin 2) * 16384 + 1 * p.val = n.val; rw [e30, hn]; omega
  | ⟨1, _⟩ => show win0_3.index t (1 : Fin 2) * 16 + 1 * q.val = q.val; rw [e31]; omega

/-- WHAT POINT `t` WRITES BACK is block `t` of `G` of the arrays as the region finds them. -/
theorem flushed_eq (c : Dev nD) (t : Fin cfg0.N) :
    (dats m 0 c).flushed 3 t = ((cfg0.win 3).blk t).view.read (Elt Ideal)
      (G (V m c main_v0) (V m c main_v1) (V m c main_v2)) := by
  show (cfg0.win 3).cut (grid0.coords t) ((dats m 0 c).after 3 t) = _
  rw [after0_3]
  unfold out0_3
  rw [View.canon_unit_zero hz]
  simp only [View.ld_unit_zero (S := S16384x16) hz, View.ld_unit_zero (S := S3x16384) hz]
  funext j
  obtain ⟨p, q, rfl⟩ : ∃ (p : Fin 16384) (q : Fin 16), j = ix2 p q := ⟨j 0, j 1, eq_ix2 j⟩
  have hN : cfg0.N = 64 := N_0
  have hlt : 16384 * t.val + p.val < 1048576 := by have := t.isLt; have := p.isLt; omega
  refine (bodyVal_apply (iblk m c 0 t) (iblk m c 1 t) (iblk m c 2 t) p q).trans ?_
  rw [View.read_apply, emb3_apply t p q ⟨16384 * t.val + p.val, hlt⟩ rfl]
  show _ = GAt _ _ _ _ _
  unfold GAt
  simp only [iblk0_apply m c t p _ ⟨16384 * t.val + p.val, hlt⟩ rfl, iblk1_apply m c t _ p ⟨16384 * t.val + p.val, hlt⟩ rfl,
    iblk2_apply m c t _ p ⟨16384 * t.val + p.val, hlt⟩ rfl]

/-- An index of the array is in point `t`'s block iff each coordinate is in the block's range on its axis. -/
theorem mem_blk3 (t : Fin cfg0.N) (i : S1048576x16.Idx) :
    i ∈ ((cfg0.win 3).blk t).view.set ↔ ∀ a : Fin 2, win0_3.index t a * S16384x16.size a ≤ (i a).val
      ∧ (i a).val < win0_3.index t a * S16384x16.size a + S16384x16.size a := by
  show i ∈ ((View.whole main_v3).slice (win0_3.rect t)).set ↔ _
  rw [View.set_slice_whole, Rect.mem_set_unit]
  exact Iff.rfl

/-- Every index of the result array is in some point's block: row `n` is in block `n / 16384`. -/
theorem cover3 (i : S1048576x16.Idx) :
    ∃ t : Fin cfg0.N, (cfg0.win 3).flush t = true ∧ i ∈ ((cfg0.win 3).blk t).view.set := by
  have hi0 : (i 0).val < 1048576 := (i 0).isLt
  have hi1 : (i 1).val < 16 := (i 1).isLt
  have hN : cfg0.N = 64 := N_0
  have ht : (i 0).val / 16384 < cfg0.N := by rw [hN]; omega
  obtain ⟨e00, e01, e10, e11, e20, e21, e30, e31⟩ := idx_facts ⟨(i 0).val / 16384, ht⟩
  refine ⟨⟨(i 0).val / 16384, ht⟩, flush0_3 _, ?_⟩
  rw [mem_blk3]
  intro a
  match a with
  | ⟨0, _⟩ =>
    show win0_3.index ⟨(i 0).val / 16384, ht⟩ (0 : Fin 2) * 16384 ≤ (i 0).val
      ∧ (i 0).val < win0_3.index ⟨(i 0).val / 16384, ht⟩ (0 : Fin 2) * 16384 + 16384
    rw [e30]; show (i 0).val / 16384 * 16384 ≤ (i 0).val ∧ (i 0).val < (i 0).val / 16384 * 16384 + 16384; omega
  | ⟨1, _⟩ =>
    show win0_3.index ⟨(i 0).val / 16384, ht⟩ (1 : Fin 2) * 16 ≤ (i 1).val
      ∧ (i 1).val < win0_3.index ⟨(i 0).val / 16384, ht⟩ (1 : Fin 2) * 16 + 16
    rw [e31]; omega

/-- THE RESULT ARRAY after the region: `G` of the arrays as the region finds them. -/
theorem final3 (c : Dev nD) :
    (dats m 0 c).arrAt 3 cfg0.N = G (V m c main_v0) (V m c main_v1) (V m c main_v2) :=
  (dats m 0 c).arrAt_eq_of_cover 3 (G (V m c main_v0) (V m c main_v1) (V m c main_v2))
    (fun t _ => flushed_eq m c t) cover3

end Cert.KernelIdeal.Hand

end
-- ==== Proof.KHost.lean ====
/-
  The kernel program around its region. Before the region the host flattens each row's 4×4 pose matrix to 16 columns
  (a reshape: column `4 a + b` of row `n` is entry `(n, a, b)`) and transposes the two [1048576, 3] vector arrays to
  [3, 1048576]; after it the host reshapes the [1048576, 16] result back to [1048576, 4, 4]. Read through these, the
  result array's entry `(n, i, k)` is `Cert.Pose.poseK` of the three argument arrays: the entry-by-entry form of the
  specification.
-/
import proofs.«122514_j21268678050229_2_alg».proof.Proof.KBlocks
import Idealize.ShloMosaic.Lib.StableHlo.Run
import Idealize.ShloMosaic.Lib.ValueLayout

noncomputable section

namespace Cert.KernelIdeal.Hand

open Cert.KernelIdeal Cert.KernelIdeal.Gen Idealize.ShloMosaic Idealize.ShloMosaic.TcCoe Idealize.SL.Sem
open Idealize.ShloMosaic.ValueIdx Cert.Pose
open Idealize.ShloMosaic.Pipeline (Dat)

variable (m : (ℓ : Loc nD τ sig) → Buf (Elt Ideal) ℓ) (ρ : Dev nD → PrngReg)

/-- The region finds the poses flattened to 16 columns. -/
theorem V_main_v0 (c : Dev nD) : (V m c main_v0 : S1048576x16.Idx → EReal)
    = shapeCast S1048576x16 (m ((c : Thread nD τ).loc main_arg0)) shapeCasts_S1048576x4x4_S1048576x16 := by
  show StableHlo.after hostOps0 (fun b => m (c, b)) (Proc.devRef .tc main_v0) = _
  after_results
  try rfl

/-- The region finds the axis-angle vectors transposed. -/
theorem V_main_v1 (c : Dev nD) : (V m c main_v1 : S3x1048576.Idx → EReal)
    = transpose S3x1048576 [1, 0] (m ((c : Thread nD τ).loc main_arg1)) transposes_S1048576x3_S3x1048576_1_0 := by
  show StableHlo.after hostOps0 (fun b => m (c, b)) (Proc.devRef .tc main_v1) = _
  after_results
  try rfl

/-- The region finds the translations transposed. -/
theorem V_main_v2 (c : Dev nD) : (V m c main_v2 : S3x1048576.Idx → EReal)
    = transpose S3x1048576 [1, 0] (m ((c : Thread nD τ).loc main_arg2)) transposes_S1048576x3_S3x1048576_1_0 := by
  show StableHlo.after hostOps0 (fun b => m (c, b)) (Proc.devRef .tc main_v2) = _
  after_results
  try rfl

/-- After the region the host reshapes the result array back to rows of 4×4 matrices. -/
theorem tail_v4 (c : Dev nD) : Pipeline.afterTail₀ cfgs (dats m) 0 (V0 m) [hostOps1] c main_v4
    = shapeCast S1048576x4x4 ((dats m 0 c).arrAt 3 cfg0.N) shapeCasts_S1048576x16_S1048576x4x4 := by
  unfold Pipeline.afterTail₀
  show StableHlo.after hostOps1 _ (Proc.devRef .tc main_v4) = _
  after_results
  funext i
  show shapeCast S1048576x4x4 (Pipeline.withArrays spec0 c (V0 m c) (fun w => (dats m 0 c).arrAt w cfg0.N)
    (Proc.devRef .tc (Pipeline.arrRef spec0 3))) shapeCasts_S1048576x16_S1048576x4x4 i = _
  rw [Pipeline.withArrays_arr spec0 launch0.win.arr_inj c _ _ 3]

/-- Column `4 i + k` holds entry `(i, k)`. -/
theorem rowOf_pos (i k : Fin 4) : rowOf (pos i k) = i := Fin.ext (by show (4 * i.val + k.val) / 4 = i.val; omega)
theorem colOf_pos (i k : Fin 4) : colOf (pos i k) = k := Fin.ext (by show (4 * i.val + k.val) % 4 = k.val; omega)

/-- THE RESULT at `(n, i, k)`: the entry-by-entry product of row `n`'s camera matrix and pose matrix. -/
theorem result_eq (c : Dev nD) : Pipeline.afterTail₀ cfgs (dats m) 0 (V0 m) [hostOps1] c main_v4
    = poseK (m ((c : Thread nD τ).loc main_arg0)) (m ((c : Thread nD τ).loc main_arg1))
        (m ((c : Thread nD τ).loc main_arg2)) := by
  rw [tail_v4, final3]
  funext j
  obtain ⟨n, i, k, rfl⟩ : ∃ (n : Fin 1048576) (i k : Fin 4), j = ix3 n i k := ⟨j 0, j 1, j 2, eq_ix3 j⟩
  rw [poseK_ix3]
  refine (shapeCast_apply _ _ (ix3 n i k) (ix2 n (pos i k)) (by
    rw [Shape.rowMajor_val_two, Shape.rowMajor_val_three]
    show n.val * 16 + (4 * i.val + k.val) = (n.val * 4 + i.val) * 4 + k.val
    omega)).trans ?_
  show GAt _ _ _ n (pos i k) = _
  unfold GAt poseKAt
  rw [rowOf_pos, colOf_pos, V_main_v0, V_main_v1, V_main_v2]
  have hP : ∀ a b : Fin 4, shapeCast S1048576x16 (m ((c : Thread nD τ).loc main_arg0)) shapeCasts_S1048576x4x4_S1048576x16
      (ix2 n (pos a b)) = (m ((c : Thread nD τ).loc main_arg0) : S1048576x4x4.Idx → EReal) (ix3 n a b) := fun a b =>
    shapeCast_apply _ _ (ix2 n (pos a b)) (ix3 n a b) (by
      rw [Shape.rowMajor_val_two, Shape.rowMajor_val_three]
      show (n.val * 4 + a.val) * 4 + b.val = n.val * 16 + (4 * a.val + b.val)
      omega)
  have hT : ∀ (x : S1048576x3.Idx → EReal) (a : Fin 3),
      transpose S3x1048576 [1, 0] x transposes_S1048576x3_S3x1048576_1_0 (ix2 a n) = x (ix2 n a) := fun x a =>
    transpose_ix2_apply x _ a n
  simp only [hP]
  rw [hT (m ((c : Thread nD τ).loc main_arg1)) 0, hT (m ((c : Thread nD τ).loc main_arg1)) 1,
    hT (m ((c : Thread nD τ).loc main_arg1)) 2, hT (m ((c : Thread nD τ).loc main_arg2)) 0,
    hT (m ((c : Thread nD τ).loc main_arg2)) 1, hT (m ((c : Thread nD τ).loc main_arg2)) 2]

/-- The kernel program's run, read: the result array at `poseK` of the arguments, the arguments unchanged. -/
theorem run : θ_run defs (onTc (τ := τ) (main (F := Ideal))) ⟨m, fun _ => 0, ρ⟩ fun r => ∀ c : Dev nD,
      r.2.mem ((c.tc : Thread nD τ).loc main_v4)
        = poseK (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Hand

end
-- ==== Proof.Law.lean ====
/-
  The two arrangements of the specification agree on rows whose axis-angle vector is real. The angle needs nothing:
  a sum of three squares started from zero is the squares added left to right. For the rotation, with `K` the skew
  matrix of a real vector `(x, y, z)`: `K² = v vᵀ - |v|² I` entry by entry (an identity of real polynomials — this is
  where finiteness is used, to cancel `x²` against `|v|²`), `c · 0 = 0` and `0 + c = c` for the entries where `I`
  or `K` vanish, `0 - c = -c` for a negation; the coefficients `sin θ / θ` and `(1 - cos θ) / θ²` are the same
  extended reals on both sides and are never opened. The product's four terms added left to right are its sum.
-/
import proofs.«122514_j21268678050229_2_alg».proof.Proof.Spec
import Idealize.ShloMosaic.PureOps.Ideal.Laws
import Mathlib.Tactic.Ring
import Mathlib.Tactic.FinCases
import Mathlib.Tactic.NormNum

noncomputable section

namespace Cert.Pose

open Idealize.ShloMosaic Idealize.ShloMosaic.ValueIdx

theorem zeroW_eq : zeroW = 0 := Ideal.ofBits_zero_f32

theorem oneW_eq : oneW = 1 := by
  unfold oneW
  simp [Ideal.ofBits, Ideal.ieee, -EReal.coe_mul]; norm_num

/-- The two spellings of the angle. -/
theorem angleR_eq (v : Fin 3 → EReal) : angleR v = angleK (v 0) (v 1) (v 2) := by
  unfold angleR angleK sqLen
  rw [Fin.sum_univ_three, zeroW_eq, zero_add]

/-- `K² = v vᵀ - |v|² I`, entry by entry, for a real vector. -/
theorem skew_sq (x y z : ℝ) (i j : Fin 3) :
    ∑ l : Fin 3, skew (x : EReal) y z i l * skew (x : EReal) y z l j
      = (![![(x : EReal) * x - sqLen x y z, (x : EReal) * y, (x : EReal) * z],
           ![(x : EReal) * y, (y : EReal) * y - sqLen x y z, (y : EReal) * z],
           ![(x : EReal) * z, (y : EReal) * z, (z : EReal) * z - sqLen x y z]] : Fin 3 → Fin 3 → EReal) i j := by
  fin_cases i <;> fin_cases j <;>
    simp [skew, sqLen, zeroW_eq, Fin.sum_univ_three] <;> norm_cast <;> ring

/-- The camera matrices agree entry by entry on a row whose axis-angle vector is real. -/
theorem cam_eq (v w : Fin 3 → EReal) (x y z : ℝ) (h0 : v 0 = x) (h1 : v 1 = y) (h2 : v 2 = z) (i j : Fin 4) :
    camK (v 0) (v 1) (v 2) (w 0) (w 1) (w 2) i j = camR v w i j := by
  have hs := skew_sq x y z
  unfold camR rotR
  rw [angleR_eq, h0, h1, h2]
  simp only [hs]
  fin_cases i <;> fin_cases j <;>
    simp [camK, skew, eye3, zeroW_eq, oneW_eq]

/-- Row `n`'s results agree when its axis-angle vector is real. -/
theorem pose_entry_eq (P : SP.Idx → EReal) (r t : SV.Idx → EReal) (n : Fin 1048576)
    (hr : ∀ a : Fin 3, ∃ x : ℝ, r (ix2 n a) = (x : EReal)) (i k : Fin 4) :
    poseKAt P r t n i k = poseRAt P r t n i k := by
  obtain ⟨x, hx⟩ := hr 0
  obtain ⟨y, hy⟩ := hr 1
  obtain ⟨z, hz⟩ := hr 2
  unfold poseKAt poseRAt mulK
  rw [Fin.sum_univ_four]
  have hc := cam_eq (fun a => r (ix2 n a)) (fun a => t (ix2 n a)) x y z hx hy hz
  simp only [← hc]

/-- THE LAW: the two arrangements are one function of arrays whose axis-angle vectors are all real. -/
theorem pose_eq (P : SP.Idx → EReal) (r t : SV.Idx → EReal) (hr : ∀ j : SV.Idx, ∃ x : ℝ, r j = (x : EReal)) :
    poseK P r t = poseR P r t :=
  funext fun j => pose_entry_eq P r t (j 0) (fun _ => hr _) (j 1) (j 2)

end Cert.Pose

end
-- ==== Proof.Finite.lean ====
/-
  What the precondition gives: every entry of the axis-angle array is a real number. The precondition is the
  conjunction of three "all entries have absolute value below +∞" tests; the middle one is the axis-angle array's, and
  an extended real whose absolute value `max x (-x)` is below `⊤` is neither `⊤` nor `⊥`.
-/
import proofs.«122514_j21268678050229_2_alg».proof.Pre_finite_inputs
import proofs.«122514_j21268678050229_2_alg».proof.Proof.Gen.Pre_finite_inputs
import Idealize.ShloMosaic.PureOps.Ideal
import Idealize.ShloMosaic.Lib.ReduceAll
import Idealize.ShloMosaic.Lib.Affine
import Idealize.ShloMosaic.Lib.ValueIdx

noncomputable section

namespace Cert.Pre_finite_inputs.Hand

open Cert.Pre_finite_inputs Idealize.ShloMosaic

instance : Subsingleton S_.Idx := ⟨fun a b => funext fun d => d.elim0⟩

/-- An extended real with `max x (-x) < ⊤` is a real number. -/
theorem real_of_abs_lt_top (x : EReal) (h : max x (-x) < ⊤) : ∃ y : ℝ, x = (y : EReal) := by
  induction x using EReal.rec with
  | bot => simp at h
  | coe y => exact ⟨y, rfl⟩
  | top => simp at h

theorem real_of_pre (a0 : FVec Ideal S1048576x4x4 .f32) (a1 a2 : FVec Ideal S1048576x3 .f32)
    (h : fn (F := Ideal) a0 a1 a2 = fun _ => 1#1) (j : S1048576x3.Idx) : ∃ y : ℝ, a1 j = (y : EReal) := by
  have h0 := congrFun h ValueIdx.ix0
  dsimp only [fn] at h0
  obtain ⟨h38, h12⟩ := IntOp.andi_eq_one.mp h0
  obtain ⟨h3, h7⟩ := IntOp.andi_eq_one.mp h38
  have e := Host.reduce_andi_all _ _ _ _ _ h7 j
  have e' : Ideal.cmp .olt (max (a1 j) (-(a1 j))) (Ideal.ofBits .f32 0x7F800000#32) = 1#1 := e
  have htop : Ideal.ofBits .f32 0x7F800000#32 = ⊤ := by simp [Ideal.ofBits, Ideal.ieee]
  rw [htop] at e'
  have hlt : max (a1 j) (-(a1 j)) < ⊤ := by
    by_contra hn
    simp [Ideal.cmp, hn] at e'
  exact real_of_abs_lt_top _ hlt

end Cert.Pre_finite_inputs.Hand

end
-- ==== Proof.RefRun.lean ====
/-
  The reference program's @main as the list of its 68 host operations, in the order the program states them — the
  thirty-one lines before the call of the row norm, the norm's four operations over the call's own buffers
  (square, the zero word, the sum along the row, the square root), the lines after it — and its run: every
  weakly fair execution terminates with each buffer at the operations' fold over the launch contents.
-/
import proofs.«122514_j21268678050229_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 68 operations, in order, the call of the row norm unfolded at its place. -/
abbrev ops : List (HloOp τ sig (Elt F)) :=
  [ nullary main_cst (fun i => FloatOps.ofBits .f32 (lit0 (S4.rowMajor i))),
    unary main_arg1 main_v0 ((extractStridedSlice S1048576x1 ![0, 0] · slices_S1048576x3_S1048576x1_0_0) : (⟨S1048576x3, .f32⟩ : BufTy).Contents (Elt F) → (⟨S1048576x1, .f32⟩ : BufTy).Contents (Elt F)),
    reshape main_v0 main_v1 rfl shapeCasts_S1048576x1_S1048576,
    nullary main_cst_0 (constant S_ .f32 0x00000000#32),
    unary main_cst_0 main_v2 (broadcastInDim S1048576 ![] bcast_S_S1048576 : (⟨S_, .f32⟩ : BufTy).Contents (Elt F) → (⟨S1048576, .f32⟩ : BufTy).Contents (Elt F)),
    unary main_arg1 main_v3 ((extractStridedSlice S1048576x1 ![0, 0] · slices_S1048576x3_S1048576x1_0_0) : (⟨S1048576x3, .f32⟩ : BufTy).Contents (Elt F) → (⟨S1048576x1, .f32⟩ : BufTy).Contents (Elt F)),
    reshape main_v3 main_v4 rfl shapeCasts_S1048576x1_S1048576,
    unary main_arg1 main_v5 ((extractStridedSlice S1048576x1 ![0, 1] · slices_S1048576x3_S1048576x1_0_1) : (⟨S1048576x3, .f32⟩ : BufTy).Contents (Elt F) → (⟨S1048576x1, .f32⟩ : BufTy).Contents (Elt F)),
    reshape main_v5 main_v6 rfl shapeCasts_S1048576x1_S1048576,
    unary main_arg1 main_v7 ((extractStridedSlice S1048576x1 ![0, 2] · slices_S1048576x3_S1048576x1_0_2) : (⟨S1048576x3, .f32⟩ : BufTy).Contents (Elt F) → (⟨S1048576x1, .f32⟩ : BufTy).Contents (Elt F)),
    reshape main_v7 main_v8 rfl shapeCasts_S1048576x1_S1048576,
    unary main_v8 main_v9 (Host.negf : (⟨S1048576, .f32⟩ : BufTy).Contents (Elt F) → (⟨S1048576, .f32⟩ : BufTy).Contents (Elt F)),
    unary main_v2 main_v10 (broadcastInDim S1048576x1 ![0] bcast_S1048576_S1048576x1_0 : (⟨S1048576, .f32⟩ : BufTy).Contents (Elt F) → (⟨S1048576x1, .f32⟩ : BufTy).Contents (Elt F)),
    unary main_v9 main_v11 (broadcastInDim S1048576x1 ![0] bcast_S1048576_S1048576x1_0 : (⟨S1048576, .f32⟩ : BufTy).Contents (Elt F) → (⟨S1048576x1, .f32⟩ : BufTy).Contents (Elt F)),
    unary main_v6 main_v12 (broadcastInDim S1048576x1 ![0] bcast_S1048576_S1048576x1_0 : (⟨S1048576, .f32⟩ : BufTy).Contents (Elt F) → (⟨S1048576x1, .f32⟩ : BufTy).Contents (Elt F)),
    nary ![main_v10, main_v11, main_v12] main_v13 (fun u => concatenate S1048576x3 1 [⟨S1048576x1, u 0⟩, ⟨S1048576x1, u 1⟩, ⟨S1048576x1, u 2⟩] concatenates_S1048576x1_S1048576x1_S1048576x1_S1048576x3_d1),
    unary main_v4 main_v14 (Host.negf : (⟨S1048576, .f32⟩ : BufTy).Contents (Elt F) → (⟨S1048576, .f32⟩ : BufTy).Contents (Elt F)),
    unary main_v8 main_v15 (broadcastInDim S1048576x1 ![0] bcast_S1048576_S1048576x1_0 : (⟨S1048576, .f32⟩ : BufTy).Contents (Elt F) → (⟨S1048576x1, .f32⟩ : BufTy).Contents (Elt F)),
    unary main_v2 main_v16 (broadcastInDim S1048576x1 ![0] bcast_S1048576_S1048576x1_0 : (⟨S1048576, .f32⟩ : BufTy).Contents (Elt F) → (⟨S1048576x1, .f32⟩ : BufTy).Contents (Elt F)),
    unary main_v14 main_v17 (broadcastInDim S1048576x1 ![0] bcast_S1048576_S1048576x1_0 : (⟨S1048576, .f32⟩ : BufTy).Contents (Elt F) → (⟨S1048576x1, .f32⟩ : BufTy).Contents (Elt F)),
    nary ![main_v15, main_v16, main_v17] main_v18 (fun u => concatenate S1048576x3 1 [⟨S1048576x1, u 0⟩, ⟨S1048576x1, u 1⟩, ⟨S1048576x1, u 2⟩] concatenates_S1048576x1_S1048576x1_S1048576x1_S1048576x3_d1),
    unary main_v6 main_v19 (Host.negf : (⟨S1048576, .f32⟩ : BufTy).Contents (Elt F) → (⟨S1048576, .f32⟩ : BufTy).Contents (Elt F)),
    unary main_v19 main_v20 (broadcastInDim S1048576x1 ![0] bcast_S1048576_S1048576x1_0 : (⟨S1048576, .f32⟩ : BufTy).Contents (Elt F) → (⟨S1048576x1, .f32⟩ : BufTy).Contents (Elt F)),
    unary main_v4 main_v21 (broadcastInDim S1048576x1 ![0] bcast_S1048576_S1048576x1_0 : (⟨S1048576, .f32⟩ : BufTy).Contents (Elt F) → (⟨S1048576x1, .f32⟩ : BufTy).Contents (Elt F)),
    unary main_v2 main_v22 (broadcastInDim S1048576x1 ![0] bcast_S1048576_S1048576x1_0 : (⟨S1048576, .f32⟩ : BufTy).Contents (Elt F) → (⟨S1048576x1, .f32⟩ : BufTy).Contents (Elt F)),
    nary ![main_v20, main_v21, main_v22] main_v23 (fun u => concatenate S1048576x3 1 [⟨S1048576x1, u 0⟩, ⟨S1048576x1, u 1⟩, ⟨S1048576x1, u 2⟩] concatenates_S1048576x1_S1048576x1_S1048576x1_S1048576x3_d1),
    unary main_v13 main_v24 (broadcastInDim S1048576x1x3 ![0, 2] bcast_S1048576x3_S1048576x1x3_0_2 : (⟨S1048576x3, .f32⟩ : BufTy).Contents (Elt F) → (⟨S1048576x1x3, .f32⟩ : BufTy).Contents (Elt F)),
    unary main_v18 main_v25 (broadcastInDim S1048576x1x3 ![0, 2] bcast_S1048576x3_S1048576x1x3_0_2 : (⟨S1048576x3, .f32⟩ : BufTy).Contents (Elt F) → (⟨S1048576x1x3, .f32⟩ : BufTy).Contents (Elt F)),
    unary main_v23 main_v26 (broadcastInDim S1048576x1x3 ![0, 2] bcast_S1048576x3_S1048576x1x3_0_2 : (⟨S1048576x3, .f32⟩ : BufTy).Contents (Elt F) → (⟨S1048576x1x3, .f32⟩ : BufTy).Contents (Elt F)),
    nary ![main_v24, main_v25, main_v26] main_v27 (fun u => concatenate S1048576x3x3 1 [⟨S1048576x1x3, u 0⟩, ⟨S1048576x1x3, u 1⟩, ⟨S1048576x1x3, u 2⟩] concatenates_S1048576x1x3_S1048576x1x3_S1048576x1x3_S1048576x3x3_d1),
    TRef.binary (.of main_arg1) (.of main_arg1) main_call0.v0 mulf,
    TRef.nullary main_call0.cst (constant S_ .f32 0x00000000#32),
    TRef.binary main_call0.v0 main_call0.cst main_call0.v1 (fun x v => Host.reduceAdd x v reducesTo_S1048576x3_S1048576_d1 h_S_),
    TRef.unary main_call0.v1 main_call0.v2 Host.sqrt,
    nullary main_cst_1 (constant S_ .f32 0x26901D7D#32),
    unary main_cst_1 main_v29 (broadcastInDim S1048576 ![] bcast_S_S1048576 : (⟨S_, .f32⟩ : BufTy).Contents (Elt F) → (⟨S1048576, .f32⟩ : BufTy).Contents (Elt F)),
    binary main_v28 main_v29 main_v30 (addf : (⟨S1048576, .f32⟩ : BufTy).Contents (Elt F) → (⟨S1048576, .f32⟩ : BufTy).Contents (Elt F) → (⟨S1048576, .f32⟩ : BufTy).Contents (Elt F)),
    unary main_v30 main_v31 (broadcastInDim S1048576x1x1 ![0] bcast_S1048576_S1048576x1x1_0 : (⟨S1048576, .f32⟩ : BufTy).Contents (Elt F) → (⟨S1048576x1x1, .f32⟩ : BufTy).Contents (Elt F)),
    nullary main_v32 (iotaInDim S3x3 32 0),
    nullary main_v33 (iotaInDim S3x3 32 1),
    nullary main_c (constantI S_ 32 0#32),
    unary main_c main_v34 (broadcastInDim S3x3 ![] bcast_S_S3x3 : (⟨S_, .i32⟩ : BufTy).Contents (Elt F) → (⟨S3x3, .i32⟩ : BufTy).Contents (Elt F)),
    binary main_v32 main_v34 main_v35 (addi : (⟨S3x3, .i32⟩ : BufTy).Contents (Elt F) → (⟨S3x3, .i32⟩ : BufTy).Contents (Elt F) → (⟨S3x3, .i32⟩ : BufTy).Contents (Elt F)),
    binary main_v35 main_v33 main_v36 (cmpi .eq : (⟨S3x3, .i32⟩ : BufTy).Contents (Elt F) → (⟨S3x3, .i32⟩ : BufTy).Contents (Elt F) → (⟨S3x3, .i1⟩ : BufTy).Contents (Elt F)),
    unary main_v36 main_v37 (uitofp .f32 : (⟨S3x3, .i1⟩ : BufTy).Contents (Elt F) → (⟨S3x3, .f32⟩ : BufTy).Contents (Elt F)),
    binary main_v27 main_v27 main_v38 ((fun l r => Host.dotGeneral dot_S1048576x3x3_S1048576x3x3_S1048576x3x3_2_1_1_2_0_0 none l r) : (⟨S1048576x3x3, .f32⟩ : BufTy).Contents (Elt F) → (⟨S1048576x3x3, .f32⟩ : BufTy).Contents (Elt F) → (⟨S1048576x3x3, .f32⟩ : BufTy).Contents (Elt F)),
    unary main_v31 main_v39 (Host.sin : (⟨S1048576x1x1, .f32⟩ : BufTy).Contents (Elt F) → (⟨S1048576x1x1, .f32⟩ : BufTy).Contents (Elt F)),
    binary main_v39 main_v31 main_v40 (Host.divf : (⟨S1048576x1x1, .f32⟩ : BufTy).Contents (Elt F) → (⟨S1048576x1x1, .f32⟩ : BufTy).Contents (Elt F) → (⟨S1048576x1x1, .f32⟩ : BufTy).Contents (Elt F)),
    unary main_v40 main_v41 (broadcastInDim S1048576x3x3 ![0, 1, 2] bcast_S1048576x1x1_S1048576x3x3_0_1_2 : (⟨S1048576x1x1, .f32⟩ : BufTy).Contents (Elt F) → (⟨S1048576x3x3, .f32⟩ : BufTy).Contents (Elt F)),
    binary main_v41 main_v27 main_v42 (mulf : (⟨S1048576x3x3, .f32⟩ : BufTy).Contents (Elt F) → (⟨S1048576x3x3, .f32⟩ : BufTy).Contents (Elt F) → (⟨S1048576x3x3, .f32⟩ : BufTy).Contents (Elt F)),
    unary main_v37 main_v43 (broadcastInDim S1x3x3 ![1, 2] bcast_S3x3_S1x3x3_1_2 : (⟨S3x3, .f32⟩ : BufTy).Contents (Elt F) → (⟨S1x3x3, .f32⟩ : BufTy).Contents (Elt F)),
    unary main_v43 main_v44 (broadcastInDim S1048576x3x3 ![0, 1, 2] bcast_S1x3x3_S1048576x3x3_0_1_2 : (⟨S1x3x3, .f32⟩ : BufTy).Contents (Elt F) → (⟨S1048576x3x3, .f32⟩ : BufTy).Contents (Elt F)),
    binary main_v44 main_v42 main_v45 (addf : (⟨S1048576x3x3, .f32⟩ : BufTy).Contents (Elt F) → (⟨S1048576x3x3, .f32⟩ : BufTy).Contents (Elt F) → (⟨S1048576x3x3, .f32⟩ : BufTy).Contents (Elt F)),
    unary main_v31 main_v46 (Host.cos : (⟨S1048576x1x1, .f32⟩ : BufTy).Contents (Elt F) → (⟨S1048576x1x1, .f32⟩ : BufTy).Contents (Elt F)),
    nullary main_cst_2 (constant S_ .f32 0x3F800000#32),
    unary main_cst_2 main_v47 (broadcastInDim S1048576x1x1 ![] bcast_S_S1048576x1x1 : (⟨S_, .f32⟩ : BufTy).Contents (Elt F) → (⟨S1048576x1x1, .f32⟩ : BufTy).Contents (Elt F)),
    binary main_v47 main_v46 main_v48 (subf : (⟨S1048576x1x1, .f32⟩ : BufTy).Contents (Elt F) → (⟨S1048576x1x1, .f32⟩ : BufTy).Contents (Elt F) → (⟨S1048576x1x1, .f32⟩ : BufTy).Contents (Elt F)),
    binary main_v31 main_v31 main_v49 (mulf : (⟨S1048576x1x1, .f32⟩ : BufTy).Contents (Elt F) → (⟨S1048576x1x1, .f32⟩ : BufTy).Contents (Elt F) → (⟨S1048576x1x1, .f32⟩ : BufTy).Contents (Elt F)),
    binary main_v48 main_v49 main_v50 (Host.divf : (⟨S1048576x1x1, .f32⟩ : BufTy).Contents (Elt F) → (⟨S1048576x1x1, .f32⟩ : BufTy).Contents (Elt F) → (⟨S1048576x1x1, .f32⟩ : BufTy).Contents (Elt F)),
    unary main_v50 main_v51 (broadcastInDim S1048576x3x3 ![0, 1, 2] bcast_S1048576x1x1_S1048576x3x3_0_1_2 : (⟨S1048576x1x1, .f32⟩ : BufTy).Contents (Elt F) → (⟨S1048576x3x3, .f32⟩ : BufTy).Contents (Elt F)),
    binary main_v51 main_v38 main_v52 (mulf : (⟨S1048576x3x3, .f32⟩ : BufTy).Contents (Elt F) → (⟨S1048576x3x3, .f32⟩ : BufTy).Contents (Elt F) → (⟨S1048576x3x3, .f32⟩ : BufTy).Contents (Elt F)),
    binary main_v45 main_v52 main_v53 (addf : (⟨S1048576x3x3, .f32⟩ : BufTy).Contents (Elt F) → (⟨S1048576x3x3, .f32⟩ : BufTy).Contents (Elt F) → (⟨S1048576x3x3, .f32⟩ : BufTy).Contents (Elt F)),
    unary main_arg2 main_v54 (broadcastInDim S1048576x3x1 ![0, 1] bcast_S1048576x3_S1048576x3x1_0_1 : (⟨S1048576x3, .f32⟩ : BufTy).Contents (Elt F) → (⟨S1048576x3x1, .f32⟩ : BufTy).Contents (Elt F)),
    binary main_v53 main_v54 main_v55 ((fun a b => concatenate S1048576x3x4 2 [⟨S1048576x3x3, a⟩, ⟨S1048576x3x1, b⟩] concatenates_S1048576x3x3_S1048576x3x1_S1048576x3x4_d2) : (⟨S1048576x3x3, .f32⟩ : BufTy).Contents (Elt F) → (⟨S1048576x3x1, .f32⟩ : BufTy).Contents (Elt F) → (⟨S1048576x3x4, .f32⟩ : BufTy).Contents (Elt F)),
    unary main_cst main_v56 (broadcastInDim S1x1x4 ![2] bcast_S4_S1x1x4_2 : (⟨S4, .f32⟩ : BufTy).Contents (Elt F) → (⟨S1x1x4, .f32⟩ : BufTy).Contents (Elt F)),
    unary main_v56 main_v57 (broadcastInDim S1048576x1x4 ![0, 1, 2] bcast_S1x1x4_S1048576x1x4_0_1_2 : (⟨S1x1x4, .f32⟩ : BufTy).Contents (Elt F) → (⟨S1048576x1x4, .f32⟩ : BufTy).Contents (Elt F)),
    binary main_v55 main_v57 main_v58 ((fun a b => concatenate S1048576x4x4 1 [⟨S1048576x3x4, a⟩, ⟨S1048576x1x4, b⟩] concatenates_S1048576x3x4_S1048576x1x4_S1048576x4x4_d1) : (⟨S1048576x3x4, .f32⟩ : BufTy).Contents (Elt F) → (⟨S1048576x1x4, .f32⟩ : BufTy).Contents (Elt F) → (⟨S1048576x4x4, .f32⟩ : BufTy).Contents (Elt F)),
    binary main_v58 main_arg0 main_v59 ((fun l r => Host.dotGeneral dot_S1048576x4x4_S1048576x4x4_S1048576x4x4_2_1_1_2_0_0 none l r) : (⟨S1048576x4x4, .f32⟩ : BufTy).Contents (Elt F) → (⟨S1048576x4x4, .f32⟩ : BufTy).Contents (Elt F) → (⟨S1048576x4x4, .f32⟩ : BufTy).Contents (Elt F)) ]

-- sixty-eight binds re-associated: the rewrite under the chain recurses once per statement
set_option maxRecDepth 4096 in
/-- @main is that straight line: the two windows and the norm's definition unfolded, both sides are one chain of
    steps once sequencing is re-associated. -/
theorem main_eq (c : Dev nD) : main (F := F) c = seq ops := by
  simp only [main, main_part0, main_part1, fn_norm.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., reshape_bufs_sub .., nullary_bufs_sub .., unary_bufs_sub .., unary_bufs_sub ..,
    reshape_bufs_sub .., unary_bufs_sub .., reshape_bufs_sub .., unary_bufs_sub .., reshape_bufs_sub .., unary_bufs_sub ..,
    unary_bufs_sub .., unary_bufs_sub .., unary_bufs_sub .., nary_bufs_sub .., unary_bufs_sub .., unary_bufs_sub ..,
    unary_bufs_sub .., unary_bufs_sub .., nary_bufs_sub .., unary_bufs_sub .., unary_bufs_sub .., unary_bufs_sub ..,
    unary_bufs_sub .., nary_bufs_sub .., unary_bufs_sub .., unary_bufs_sub .., unary_bufs_sub .., nary_bufs_sub ..,
    binary_bufs_sub .., nullary_bufs_sub .., binary_bufs_sub .., unary_bufs_sub .., nullary_bufs_sub .., unary_bufs_sub ..,
    binary_bufs_sub .., unary_bufs_sub .., nullary_bufs_sub .., nullary_bufs_sub .., nullary_bufs_sub .., unary_bufs_sub ..,
    binary_bufs_sub .., binary_bufs_sub .., unary_bufs_sub .., binary_bufs_sub .., unary_bufs_sub .., binary_bufs_sub ..,
    unary_bufs_sub .., binary_bufs_sub .., unary_bufs_sub .., unary_bufs_sub .., binary_bufs_sub .., unary_bufs_sub ..,
    nullary_bufs_sub .., unary_bufs_sub .., binary_bufs_sub .., binary_bufs_sub .., binary_bufs_sub .., unary_bufs_sub ..,
    binary_bufs_sub .., binary_bufs_sub .., unary_bufs_sub .., binary_bufs_sub .., unary_bufs_sub .., unary_bufs_sub ..,
    binary_bufs_sub .., binary_bufs_sub ..⟩

/-- On the device, for any float values, from any memory with zero counters: every weakly fair execution of @main
    terminates, and every final state has each buffer at the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefStages.lean ====
/-
  The reference's result as staged pure functions of the three arguments' contents, in the program's own order:
  the three coordinates of each row's vector as arrays of their own, the skew-symmetric matrix assembled row by row
  from them, their negations and the zero array, the angle (the row norm plus the small word), the identity from two
  index arrays compared, the square of the skew matrix as a batched product, Rodrigues' combination, the camera
  matrix assembled from the rotation, the translation column and the constant last row, and the batched product
  with the pose array. The operations' fold at the result buffer is that function of the arguments, by computation.
-/
import proofs.«122514_j21268678050229_2_alg».proof.Proof.RefRun

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Coordinate 0 of every row's vector, as an array over the rows. -/
def colx (r : FVec F S1048576x3 .f32) : FVec F S1048576 .f32 :=
  shapeCast S1048576 (extractStridedSlice S1048576x1 ![0, 0] r slices_S1048576x3_S1048576x1_0_0) shapeCasts_S1048576x1_S1048576
/-- Coordinate 1. -/
def coly (r : FVec F S1048576x3 .f32) : FVec F S1048576 .f32 :=
  shapeCast S1048576 (extractStridedSlice S1048576x1 ![0, 1] r slices_S1048576x3_S1048576x1_0_1) shapeCasts_S1048576x1_S1048576
/-- Coordinate 2. -/
def colz (r : FVec F S1048576x3 .f32) : FVec F S1048576 .f32 :=
  shapeCast S1048576 (extractStridedSlice S1048576x1 ![0, 2] r slices_S1048576x3_S1048576x1_0_2) shapeCasts_S1048576x1_S1048576

/-- The zero word at every row. -/
def zeros : FVec F S1048576 .f32 :=
  broadcastInDim S1048576 ![] bcast_S_S1048576 (constant S_ .f32 0x00000000#32)

/-- An array over the rows as a one-column array. -/
def col1 (v : FVec F S1048576 .f32) : FVec F S1048576x1 .f32 :=
  broadcastInDim S1048576x1 ![0] bcast_S1048576_S1048576x1_0 v

/-- Three arrays over the rows side by side: rows × 3. -/
def row3 (a b c : FVec F S1048576 .f32) : FVec F S1048576x3 .f32 :=
  concatenate S1048576x3 1 [⟨S1048576x1, col1 a⟩, ⟨S1048576x1, col1 b⟩, ⟨S1048576x1, col1 c⟩]
    concatenates_S1048576x1_S1048576x1_S1048576x1_S1048576x3_d1

/-- A rows × 3 array as rows × 1 × 3. -/
def asRow (x : FVec F S1048576x3 .f32) : FVec F S1048576x1x3 .f32 :=
  broadcastInDim S1048576x1x3 ![0, 2] bcast_S1048576x3_S1048576x1x3_0_2 x

/-- The skew-symmetric matrix of every row's vector: its three matrix rows stacked. -/
def skewM (r : FVec F S1048576x3 .f32) : FVec F S1048576x3x3 .f32 :=
  concatenate S1048576x3x3 1
    [⟨S1048576x1x3, asRow (row3 zeros (Host.negf (colz r)) (coly r))⟩,
     ⟨S1048576x1x3, asRow (row3 (colz r) zeros (Host.negf (colx r)))⟩,
     ⟨S1048576x1x3, asRow (row3 (Host.negf (coly r)) (colx r) zeros)⟩]
    concatenates_S1048576x1x3_S1048576x1x3_S1048576x1x3_S1048576x3x3_d1

/-- The angle of every row: the norm of its vector plus the small word. -/
def theta (r : FVec F S1048576x3 .f32) : FVec F S1048576 .f32 :=
  addf (Host.sqrt (Host.reduceAdd (mulf r r) (constant S_ .f32 0x00000000#32) reducesTo_S1048576x3_S1048576_d1 h_S_))
    (broadcastInDim S1048576 ![] bcast_S_S1048576 (constant S_ .f32 0x26901D7D#32))

/-- The angle as rows × 1 × 1. -/
def theta3 (r : FVec F S1048576x3 .f32) : FVec F S1048576x1x1 .f32 :=
  broadcastInDim S1048576x1x1 ![0] bcast_S1048576_S1048576x1x1_0 (theta r)

/-- The 3 × 3 identity: the row index array compared with the column index array, the bit converted to a float. -/
def eyeM : FVec F S3x3 .f32 :=
  uitofp .f32 (cmpi .eq (addi (iotaInDim S3x3 32 0) (broadcastInDim S3x3 ![] bcast_S_S3x3 (constantI S_ 32 0#32)))
    (iotaInDim S3x3 32 1))

/-- A rows × 1 × 1 array at every entry of the rows' 3 × 3 matrices. -/
def full33 (x : FVec F S1048576x1x1 .f32) : FVec F S1048576x3x3 .f32 :=
  broadcastInDim S1048576x3x3 ![0, 1, 2] bcast_S1048576x1x1_S1048576x3x3_0_1_2 x

/-- The skew matrix squared, row by row: a batched product. -/
def sqM (r : FVec F S1048576x3 .f32) : FVec F S1048576x3x3 .f32 :=
  Host.dotGeneral dot_S1048576x3x3_S1048576x3x3_S1048576x3x3_2_1_1_2_0_0 none (skewM r) (skewM r)

/-- `sin θ / θ` of every row. -/
def coefA (r : FVec F S1048576x3 .f32) : FVec F S1048576x1x1 .f32 :=
  Host.divf (Host.sin (theta3 r)) (theta3 r)

/-- `(1 - cos θ) / (θ · θ)` of every row. -/
def coefB (r : FVec F S1048576x3 .f32) : FVec F S1048576x1x1 .f32 :=
  Host.divf
    (subf (broadcastInDim S1048576x1x1 ![] bcast_S_S1048576x1x1 (constant S_ .f32 0x3F800000#32)) (Host.cos (theta3 r)))
    (mulf (theta3 r) (theta3 r))

/-- The identity at every row. -/
def eyeAll : FVec F S1048576x3x3 .f32 :=
  broadcastInDim S1048576x3x3 ![0, 1, 2] bcast_S1x3x3_S1048576x3x3_0_1_2
    (broadcastInDim S1x3x3 ![1, 2] bcast_S3x3_S1x3x3_1_2 eyeM)

/-- Rodrigues' rotation of every row: `(I + a·K) + b·K²`. -/
def rotM (r : FVec F S1048576x3 .f32) : FVec F S1048576x3x3 .f32 :=
  addf (addf eyeAll (mulf (full33 (coefA r)) (skewM r))) (mulf (full33 (coefB r)) (sqM r))

/-- The translation as a column: rows × 3 × 1. -/
def transCol (t : FVec F S1048576x3 .f32) : FVec F S1048576x3x1 .f32 :=
  broadcastInDim S1048576x3x1 ![0, 1] bcast_S1048576x3_S1048576x3x1_0_1 t

/-- The camera matrix's first three rows: the rotation with the translation column appended. -/
def topM (r t : FVec F S1048576x3 .f32) : FVec F S1048576x3x4 .f32 :=
  concatenate S1048576x3x4 2 [⟨S1048576x3x3, rotM r⟩, ⟨S1048576x3x1, transCol t⟩]
    concatenates_S1048576x3x3_S1048576x3x1_S1048576x3x4_d2

/-- The camera matrix's constant last row, at every row of the batch. -/
def lastRow : FVec F S1048576x1x4 .f32 :=
  broadcastInDim S1048576x1x4 ![0, 1, 2] bcast_S1x1x4_S1048576x1x4_0_1_2
    (broadcastInDim S1x1x4 ![2] bcast_S4_S1x1x4_2 (fun i => FloatOps.ofBits .f32 (lit0 (S4.rowMajor i))))

/-- The camera matrix of every row. -/
def camM (r t : FVec F S1048576x3 .f32) : FVec F S1048576x4x4 .f32 :=
  concatenate S1048576x4x4 1 [⟨S1048576x3x4, topM r t⟩, ⟨S1048576x1x4, lastRow⟩]
    concatenates_S1048576x3x4_S1048576x1x4_S1048576x4x4_d1

/-- The result: every row's camera matrix times its pose matrix. -/
def out (P : FVec F S1048576x4x4 .f32) (r t : FVec F S1048576x3 .f32) : FVec F S1048576x4x4 .f32 :=
  Host.dotGeneral dot_S1048576x4x4_S1048576x4x4_S1048576x4x4_2_1_1_2_0_0 none (camM r t) P

attribute [local irreducible] concatenate Host.reduceAdd broadcastInDim extractStridedSlice shapeCast in
set_option maxRecDepth 16384 in
/-- The fold at the result buffer is `out` of the arguments' contents, by computation: the fold unrolled, each
    operation's result decides whether the buffer read is the one it writes, and the staged definitions unfold to
    the operations' own functions. The re-indexings and the row sum are kept folded meanwhile: the equation never
    looks inside them. -/
theorem out_eq (V : Valuation τ sig (Elt F)) :
    after ops V (main_v59 : DevRef τ sig)
      = out (V (main_arg0 : DevRef τ sig)) (V (main_arg1 : DevRef τ sig)) (V (main_arg2 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

end Cert.ReferenceIdeal.RefValue

end
-- ==== Proof.RefReadSkew.lean ====
/-
  The skew-symmetric matrix of every row's vector, read entry by entry at the ideal values: each of the three
  coordinate arrays at a row is the vector array at that row and coordinate; three arrays side by side read the
  array of the column asked for; the stacked matrix reads the stacked row asked for. Entry (i, j) of row n's matrix is
  entry (i, j) of the literal skew matrix of the row's three coordinates.
-/
import proofs.«122514_j21268678050229_2_alg».proof.Proof.RefStages
import proofs.«122514_j21268678050229_2_alg».proof.Proof.Spec
import Idealize.ShloMosaic.Lib.Pipeline.Value
import Idealize.ShloMosaic.Lib.ValueIdx

noncomputable section

namespace Cert.ReferenceIdeal.RefValue

open Cert.ReferenceIdeal Cert.ReferenceIdeal.Gen Idealize.ShloMosaic Idealize.ShloMosaic.ValueIdx

/-- Coordinate 0 of row `n`. -/
theorem colx_apply (r : FVec Ideal S1048576x3 .f32) (n : Fin 1048576) : colx r (ix1 n) = r (ix2 n 0) := by
  unfold colx
  refine (shapeCast_apply _ _ (ix1 n) (ix2 n 0) ?_).trans ?_
  · rw [Shape.rowMajor_val_two, Shape.rowMajor_val_one]; show n.val * 1 + 0 = n.val; omega
  · exact extractStridedSlice_apply _ r _ (ix2 n 0) (ix2 n 0) fun a => by
      match a with
      | ⟨0, _⟩ => show n.val = 0 + n.val; omega
      | ⟨1, _⟩ => rfl

/-- Coordinate 1 of row `n`. -/
theorem coly_apply (r : FVec Ideal S1048576x3 .f32) (n : Fin 1048576) : coly r (ix1 n) = r (ix2 n 1) := by
  unfold coly
  refine (shapeCast_apply _ _ (ix1 n) (ix2 n 0) ?_).trans ?_
  · rw [Shape.rowMajor_val_two, Shape.rowMajor_val_one]; show n.val * 1 + 0 = n.val; omega
  · exact extractStridedSlice_apply _ r _ (ix2 n 0) (ix2 n 1) fun a => by
      match a with
      | ⟨0, _⟩ => show n.val = 0 + n.val; omega
      | ⟨1, _⟩ => rfl

/-- Coordinate 2 of row `n`. -/
theorem colz_apply (r : FVec Ideal S1048576x3 .f32) (n : Fin 1048576) : colz r (ix1 n) = r (ix2 n 2) := by
  unfold colz
  refine (shapeCast_apply _ _ (ix1 n) (ix2 n 0) ?_).trans ?_
  · rw [Shape.rowMajor_val_two, Shape.rowMajor_val_one]; show n.val * 1 + 0 = n.val; omega
  · exact extractStridedSlice_apply _ r _ (ix2 n 0) (ix2 n 2) fun a => by
      match a with
      | ⟨0, _⟩ => show n.val = 0 + n.val; omega
      | ⟨1, _⟩ => rfl

/-- The zero array reads the zero word. -/
theorem zeros_apply (n : Fin 1048576) : zeros (F := Ideal) (ix1 n) = Cert.Pose.zeroW := rfl

/-- A one-column array reads the array. -/
theorem col1_apply (v : FVec Ideal S1048576 .f32) (n : Fin 1048576) (c : Fin 1) : col1 v (ix2 n c) = v (ix1 n) := by
  unfold col1
  exact broadcastInDim_apply _ _ v (ix2 n c) (ix1 n) fun a => by
    match a with
    | ⟨0, _⟩ => rfl

/-- Three arrays side by side read, at column 0, the first of them … -/
theorem row3_apply0 (a b c : FVec Ideal S1048576 .f32) (n : Fin 1048576) :
    row3 a b c (ix2 n (0 : Fin 3)) = a (ix1 n) := by
  unfold row3
  refine (concatenate_apply_piece (t := S1048576x3) (1 : Fin 2) [⟨S1048576x1, col1 a⟩, ⟨S1048576x1, col1 b⟩, ⟨S1048576x1, col1 c⟩]
    concatenates_S1048576x1_S1048576x1_S1048576x1_S1048576x3_d1 (ix2 n (0 : Fin 3)) 0 ?_ S1048576x1 (col1 a) rfl rfl 0 rfl
    (ix2 n (0 : Fin 1)) ?_ ?_).trans (col1_apply a n 0)
  · simp
  · intro q hq
    match q with
    | ⟨0, _⟩ => rfl
    | ⟨1, _⟩ => exact absurd rfl hq
  · rfl

/-- … at column 1 the second … -/
theorem row3_apply1 (a b c : FVec Ideal S1048576 .f32) (n : Fin 1048576) :
    row3 a b c (ix2 n (1 : Fin 3)) = b (ix1 n) := by
  unfold row3
  refine (concatenate_apply_piece (t := S1048576x3) (1 : Fin 2) [⟨S1048576x1, col1 a⟩, ⟨S1048576x1, col1 b⟩, ⟨S1048576x1, col1 c⟩]
    concatenates_S1048576x1_S1048576x1_S1048576x1_S1048576x3_d1 (ix2 n (1 : Fin 3)) 1 ?_ S1048576x1 (col1 b) rfl rfl 1 rfl
    (ix2 n (0 : Fin 1)) ?_ ?_).trans (col1_apply b n 0)
  · simp
  · intro q hq
    match q with
    | ⟨0, _⟩ => rfl
    | ⟨1, _⟩ => exact absurd rfl hq
  · rfl

/-- … and at column 2 the third. -/
theorem row3_apply2 (a b c : FVec Ideal S1048576 .f32) (n : Fin 1048576) :
    row3 a b c (ix2 n (2 : Fin 3)) = c (ix1 n) := by
  unfold row3
  refine (concatenate_apply_piece (t := S1048576x3) (1 : Fin 2) [⟨S1048576x1, col1 a⟩, ⟨S1048576x1, col1 b⟩, ⟨S1048576x1, col1 c⟩]
    concatenates_S1048576x1_S1048576x1_S1048576x1_S1048576x3_d1 (ix2 n (2 : Fin 3)) 2 ?_ S1048576x1 (col1 c) rfl rfl 2 rfl
    (ix2 n (0 : Fin 1)) ?_ ?_).trans (col1_apply c n 0)
  · simp
  · intro q hq
    match q with
    | ⟨0, _⟩ => rfl
    | ⟨1, _⟩ => exact absurd rfl hq
  · rfl

/-- A rows × 3 array as rows × 1 × 3 reads the array. -/
theorem asRow_apply (x : FVec Ideal S1048576x3 .f32) (n : Fin 1048576) (c : Fin 1) (j : Fin 3) :
    asRow x (ix3 n c j) = x (ix2 n j) := by
  unfold asRow
  exact broadcastInDim_apply _ _ x (ix3 n c j) (ix2 n j) fun a => by
    match a with
    | ⟨0, _⟩ => rfl
    | ⟨1, _⟩ => rfl

/-- Row 0 of every stacked skew matrix. -/
theorem skewM_row0 (r : FVec Ideal S1048576x3 .f32) (n : Fin 1048576) (j : Fin 3) :
    skewM r (ix3 n (0 : Fin 3) j) = row3 zeros (Host.negf (colz r)) (coly r) (ix2 n j) := by
  unfold skewM
  refine (concatenate_apply_piece (t := S1048576x3x3) (1 : Fin 3)
    [⟨S1048576x1x3, asRow (row3 zeros (Host.negf (colz r)) (coly r))⟩, ⟨S1048576x1x3, asRow (row3 (colz r) zeros (Host.negf (colx r)))⟩,
      ⟨S1048576x1x3, asRow (row3 (Host.negf (coly r)) (colx r) zeros)⟩]
    concatenates_S1048576x1x3_S1048576x1x3_S1048576x1x3_S1048576x3x3_d1 (ix3 n (0 : Fin 3) j) 0 ?_ S1048576x1x3
    (asRow (row3 zeros (Host.negf (colz r)) (coly r))) rfl rfl 0 rfl (ix3 n (0 : Fin 1) j) ?_ ?_).trans (asRow_apply _ n 0 j)
  · simp
  · intro q hq
    match q with
    | ⟨0, _⟩ => rfl
    | ⟨1, _⟩ => exact absurd rfl hq
    | ⟨2, _⟩ => rfl
  · rfl

/-- Row 1 of every stacked skew matrix. -/
theorem skewM_row1 (r : FVec Ideal S1048576x3 .f32) (n : Fin 1048576) (j : Fin 3) :
    skewM r (ix3 n (1 : Fin 3) j) = row3 (colz r) zeros (Host.negf (colx r)) (ix2 n j) := by
  unfold skewM
  refine (concatenate_apply_piece (t := S1048576x3x3) (1 : Fin 3)
    [⟨S1048576x1x3, asRow (row3 zeros (Host.negf (colz r)) (coly r))⟩, ⟨S1048576x1x3, asRow (row3 (colz r) zeros (Host.negf (colx r)))⟩,
      ⟨S1048576x1x3, asRow (row3 (Host.negf (coly r)) (colx r) zeros)⟩]
    concatenates_S1048576x1x3_S1048576x1x3_S1048576x1x3_S1048576x3x3_d1 (ix3 n (1 : Fin 3) j) 1 ?_ S1048576x1x3
    (asRow (row3 (colz r) zeros (Host.negf (colx r)))) rfl rfl 1 rfl (ix3 n (0 : Fin 1) j) ?_ ?_).trans (asRow_apply _ n 0 j)
  · simp
  · intro q hq
    match q with
    | ⟨0, _⟩ => rfl
    | ⟨1, _⟩ => exact absurd rfl hq
    | ⟨2, _⟩ => rfl
  · rfl

/-- Row 2 of every stacked skew matrix. -/
theorem skewM_row2 (r : FVec Ideal S1048576x3 .f32) (n : Fin 1048576) (j : Fin 3) :
    skewM r (ix3 n (2 : Fin 3) j) = row3 (Host.negf (coly r)) (colx r) zeros (ix2 n j) := by
  unfold skewM
  refine (concatenate_apply_piece (t := S1048576x3x3) (1 : Fin 3)
    [⟨S1048576x1x3, asRow (row3 zeros (Host.negf (colz r)) (coly r))⟩, ⟨S1048576x1x3, asRow (row3 (colz r) zeros (Host.negf (colx r)))⟩,
      ⟨S1048576x1x3, asRow (row3 (Host.negf (coly r)) (colx r) zeros)⟩]
    concatenates_S1048576x1x3_S1048576x1x3_S1048576x1x3_S1048576x3x3_d1 (ix3 n (2 : Fin 3) j) 2 ?_ S1048576x1x3
    (asRow (row3 (Host.negf (coly r)) (colx r) zeros)) rfl rfl 2 rfl (ix3 n (0 : Fin 1) j) ?_ ?_).trans (asRow_apply _ n 0 j)
  · simp
  · intro q hq
    match q with
    | ⟨0, _⟩ => rfl
    | ⟨1, _⟩ => exact absurd rfl hq
    | ⟨2, _⟩ => rfl
  · rfl

/-- The host's negation of an array whose entry at a row is known. -/
theorem negAt (v : FVec Ideal S1048576 .f32) (n : Fin 1048576) {w : EReal} (h : v (ix1 n) = w) :
    Host.negf v (ix1 n) = -w := congrArg Neg.neg h

/-- Entry (i, j) of row `n`'s skew matrix is the literal skew matrix's of the row's three coordinates. -/
theorem skewM_apply (r : FVec Ideal S1048576x3 .f32) (n : Fin 1048576) (i j : Fin 3) :
    skewM r (ix3 n i j) = Cert.Pose.skew (r (ix2 n 0)) (r (ix2 n 1)) (r (ix2 n 2)) i j := by
  match i, j with
  | ⟨0, _⟩, ⟨0, _⟩ => exact (skewM_row0 r n 0).trans ((row3_apply0 _ _ _ n).trans (zeros_apply n))
  | ⟨0, _⟩, ⟨1, _⟩ => exact (skewM_row0 r n 1).trans ((row3_apply1 _ _ _ n).trans (negAt _ n (colz_apply r n)))
  | ⟨0, _⟩, ⟨2, _⟩ => exact (skewM_row0 r n 2).trans ((row3_apply2 _ _ _ n).trans (coly_apply r n))
  | ⟨1, _⟩, ⟨0, _⟩ => exact (skewM_row1 r n 0).trans ((row3_apply0 _ _ _ n).trans (colz_apply r n))
  | ⟨1, _⟩, ⟨1, _⟩ => exact (skewM_row1 r n 1).trans ((row3_apply1 _ _ _ n).trans (zeros_apply n))
  | ⟨1, _⟩, ⟨2, _⟩ => exact (skewM_row1 r n 2).trans ((row3_apply2 _ _ _ n).trans (negAt _ n (colx_apply r n)))
  | ⟨2, _⟩, ⟨0, _⟩ => exact (skewM_row2 r n 0).trans ((row3_apply0 _ _ _ n).trans (negAt _ n (coly_apply r n)))
  | ⟨2, _⟩, ⟨1, _⟩ => exact (skewM_row2 r n 1).trans ((row3_apply1 _ _ _ n).trans (colx_apply r n))
  | ⟨2, _⟩, ⟨2, _⟩ => exact (skewM_row2 r n 2).trans ((row3_apply2 _ _ _ n).trans (zeros_apply n))

end Cert.ReferenceIdeal.RefValue

end
-- ==== Proof.RefReadAngle.lean ====
/-
  The angle and the two Rodrigues coefficients of every row, read at a row at the ideal values: the host's sum along a
  row of the squared vector is the zero word plus the sum over the three coordinates; its square root plus the small word
  is the angle; `sin θ / θ` and `(1 - cos θ) / (θ · θ)` are the ideal division of the ideal functions at that angle; a
  rows × 1 × 1 array spread over the rows' 3 × 3 matrices reads the row's one entry. The words stay words throughout:
  every step that meets one is stated for an arbitrary word.
-/
import proofs.«122514_j21268678050229_2_alg».proof.Proof.RefStages
import proofs.«122514_j21268678050229_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx

/-- A word spread over the rows reads the word. -/
theorem splat1_apply (b : BitVec 32) (j : S1048576.Idx) :
    broadcastInDim S1048576 ![] bcast_S_S1048576 (constant (F := Ideal) S_ .f32 b) j = Ideal.ofBits .f32 b := rfl

/-- A word spread over rows × 1 × 1 reads the word. -/
theorem splat3_apply (b : BitVec 32) (j : S1048576x1x1.Idx) :
    broadcastInDim S1048576x1x1 ![] bcast_S_S1048576x1x1 (constant (F := Ideal) S_ .f32 b) j = Ideal.ofBits .f32 b := rfl

/-- The host's square root, sine, cosine and division at an index are the ideal functions of the elements. -/
theorem hostSqrt_apply {s : Shape} (x : FVec Ideal s .f32) (i : s.Idx) : Host.sqrt x i = Ideal.sqrt (x i) := rfl
theorem hostSin_apply {s : Shape} (x : FVec Ideal s .f32) (i : s.Idx) : Host.sin x i = Ideal.sin (x i) := rfl
theorem hostCos_apply {s : Shape} (x : FVec Ideal s .f32) (i : s.Idx) : Host.cos x i = Ideal.cos (x i) := rfl
theorem hostDivf_apply {s : Shape} (x y : FVec Ideal s .f32) (i : s.Idx) : Host.divf x y i = Ideal.div (x i) (y i) := rfl

/-- The host's row sum started from a word is the ideal sum started from that word's value. -/
theorem hostRowSum_eq (x : FVec Ideal S1048576x3 .f32) (b : BitVec 32) :
    Host.reduceAdd x (constant (F := Ideal) S_ .f32 b) reducesTo_S1048576x3_S1048576_d1 h_S_
      = Ideal.hostReduceAdd reducesTo_S1048576x3_S1048576_d1 x (Ideal.ofBits .f32 b) := rfl

/-- The angle of row `n`. -/
theorem theta_apply (r : FVec Ideal S1048576x3 .f32) (n : Fin 1048576) :
    theta r (ix1 n) = Cert.Pose.angleR (fun a => r (ix2 n a)) := by
  have hR : S1048576x3.Reduces [1] S1048576 := by decide
  have hl : ∀ k : Fin 3, hR.lift (ix1 n) k = ix2 n k := fun k => by
    funext a; apply Fin.ext
    match a with
    | ⟨0, _⟩ => rfl
    | ⟨1, _⟩ => rfl
  unfold theta Cert.Pose.angleR Cert.Pose.zeroW Cert.Pose.epsW
  rw [addf_apply, hostSqrt_apply, splat1_apply, hostRowSum_eq, Ideal.hostReduceAdd_single _ hR]
  refine congrArg (fun s => Ideal.sqrt (Ideal.ofBits .f32 0x00000000#32 + s) + Ideal.ofBits .f32 0x26901D7D#32)
    (Finset.sum_congr rfl fun k _ => ?_)
  rw [mulf_apply, hl k]

/-- The angle as rows × 1 × 1. -/
theorem theta3_apply (r : FVec Ideal S1048576x3 .f32) (n : Fin 1048576) (c d : Fin 1) :
    theta3 r (ix3 n c d) = Cert.Pose.angleR (fun a => r (ix2 n a)) := by
  unfold theta3
  refine (broadcastInDim_apply _ _ _ (ix3 n c d) (ix1 n) fun a => ?_).trans (theta_apply r n)
  match a with
  | ⟨0, _⟩ => rfl

/-- `sin θ / θ` of row `n`. -/
theorem coefA_apply (r : FVec Ideal S1048576x3 .f32) (n : Fin 1048576) (c d : Fin 1) :
    coefA r (ix3 n c d) = Cert.Pose.sinc (Cert.Pose.angleR (fun a => r (ix2 n a))) := by
  unfold coefA Cert.Pose.sinc
  rw [hostDivf_apply, hostSin_apply, theta3_apply]

/-- `(1 - cos θ) / (θ · θ)` of row `n`. -/
theorem coefB_apply (r : FVec Ideal S1048576x3 .f32) (n : Fin 1048576) (c d : Fin 1) :
    coefB r (ix3 n c d) = Cert.Pose.cosc (Cert.Pose.angleR (fun a => r (ix2 n a))) := by
  unfold coefB Cert.Pose.cosc Cert.Pose.oneW
  rw [hostDivf_apply, subf_apply, mulf_apply, hostCos_apply, splat3_apply, theta3_apply]

/-- A rows × 1 × 1 array spread over the 3 × 3 matrices reads the row's entry. -/
theorem full33_apply (x : FVec Ideal S1048576x1x1 .f32) (n : Fin 1048576) (i j : Fin 3) :
    full33 x (ix3 n i j) = x (ix3 n (0 : Fin 1) (0 : Fin 1)) := by
  unfold full33
  exact broadcastInDim_apply _ _ x (ix3 n i j) (ix3 n (0 : Fin 1) (0 : Fin 1)) fun a => by
    match a with
    | ⟨0, _⟩ => rfl
    | ⟨1, _⟩ => rfl
    | ⟨2, _⟩ => rfl

end Cert.ReferenceIdeal.RefValue

end
-- ==== Proof.RefReadEye.lean ====
/-
  The identity matrix the reference builds from two index arrays, read entry by entry at the ideal values: entry
  (i, j) compares the row number, plus the zero word, with the column number as 32-bit words; the one-bit answer read as
  a natural number and cast is 1 on the diagonal and 0 off it.
-/
import proofs.«122514_j21268678050229_2_alg».proof.Proof.RefStages
import proofs.«122514_j21268678050229_2_alg».proof.Proof.Spec
import Idealize.ShloMosaic.Lib.Pipeline.Value
import Idealize.ShloMosaic.Lib.ValueIdx

noncomputable section

namespace Cert.ReferenceIdeal.RefValue

open Cert.ReferenceIdeal Cert.ReferenceIdeal.Gen Idealize.ShloMosaic Idealize.ShloMosaic.ValueIdx

/-- The comparison's bit: set exactly on the diagonal. -/
theorem eye_bit (i j : Fin 3) :
    IntOp.cmpi .eq (IntOp.addi (BitVec.ofNat 32 i.val) 0#32) (BitVec.ofNat 32 j.val) = if i = j then 1#1 else 0#1 := by
  fin_cases i <;> fin_cases j <;> decide

/-- Entry (i, j) of the 3 × 3 identity. -/
theorem eyeM_apply (i j : Fin 3) : eyeM (F := Ideal) (ix2 i j) = Cert.Pose.eye3 i j := by
  show (((IntOp.cmpi .eq (IntOp.addi (BitVec.ofNat 32 i.val) 0#32) (BitVec.ofNat 32 j.val)).toNat : ℝ) : EReal) = _
  rw [eye_bit]
  unfold Cert.Pose.eye3
  by_cases h : i = j
  · rw [if_pos h, if_pos h]; simp
  · rw [if_neg h, if_neg h]; simp

/-- The identity at every row of the batch. -/
theorem eyeAll_apply (n : Fin 1048576) (i j : Fin 3) : eyeAll (F := Ideal) (ix3 n i j) = Cert.Pose.eye3 i j := by
  unfold eyeAll
  refine (broadcastInDim_apply _ _ _ (ix3 n i j) (ix3 (0 : Fin 1) i j) fun a => ?_).trans ?_
  · match a with
    | ⟨0, _⟩ => rfl
    | ⟨1, _⟩ => rfl
    | ⟨2, _⟩ => rfl
  refine (broadcastInDim_apply _ _ _ (ix3 (0 : Fin 1) i j) (ix2 i j) fun a => ?_).trans (eyeM_apply i j)
  match a with
  | ⟨0, _⟩ => rfl
  | ⟨1, _⟩ => rfl

end Cert.ReferenceIdeal.RefValue

end
-- ==== Proof.RefReadRot.lean ====
/-
  Rodrigues' rotation of every row, read entry by entry at the ideal values: the square of the skew matrix at (i, j) is
  the sum over l of its (i, l) entry times its (l, j) entry; the rotation's entry is the identity's plus `sin θ / θ` times
  the skew matrix's, plus `(1 - cos θ) / (θ · θ)` times the square's — the specification's rotation at the row's vector.
-/
import proofs.«122514_j21268678050229_2_alg».proof.Proof.RefReadSkew
import proofs.«122514_j21268678050229_2_alg».proof.Proof.RefReadAngle
import proofs.«122514_j21268678050229_2_alg».proof.Proof.RefReadEye
import Idealize.ShloMosaic.Lib.StackMember

noncomputable section

namespace Cert.ReferenceIdeal.RefValue

open Cert.ReferenceIdeal Cert.ReferenceIdeal.Gen Idealize.ShloMosaic Idealize.ShloMosaic.ValueIdx

/-- The skew matrix squared at (i, j): the sum over the middle index. -/
theorem sqM_apply (r : FVec Ideal S1048576x3 .f32) (n : Fin 1048576) (i j : Fin 3) :
    sqM r (ix3 n i j) = ∑ l : Fin 3, skewM r (ix3 n i l) * skewM r (ix3 n l j) := by
  unfold sqM
  exact StackMember.dotGeneral_stack_apply (G := 1048576) (m := 3) (n := 3) (k := 3)
    dot_S1048576x3x3_S1048576x3x3_S1048576x3x3_2_1_1_2_0_0_wf none (skewM r) (skewM r) n i j

/-- The rotation of row `n` at (i, j) is the specification's. -/
theorem rotM_apply (r : FVec Ideal S1048576x3 .f32) (n : Fin 1048576) (i j : Fin 3) :
    rotM r (ix3 n i j) = Cert.Pose.rotR (fun a => r (ix2 n a)) i j := by
  unfold rotM Cert.Pose.rotR
  rw [addf_apply, addf_apply, mulf_apply, mulf_apply, full33_apply, full33_apply, coefA_apply, coefB_apply,
    eyeAll_apply, skewM_apply, sqM_apply]
  refine congrArg (fun s => (Cert.Pose.eye3 i j + Cert.Pose.sinc (Cert.Pose.angleR fun a => r (ix2 n a))
      * Cert.Pose.skew (r (ix2 n 0)) (r (ix2 n 1)) (r (ix2 n 2)) i j)
      + Cert.Pose.cosc (Cert.Pose.angleR fun a => r (ix2 n a)) * s) (Finset.sum_congr rfl fun l _ => ?_)
  rw [skewM_apply, skewM_apply]

end Cert.ReferenceIdeal.RefValue

end
-- ==== Proof.RefReadCam.lean ====
/-
  The camera matrix of every row and the final product, read entry by entry at the ideal values: rows 0 to 2 of the
  camera matrix are the rotation's row with the translation's coordinate appended as column 3, row 3 is the constant
  row whose words are the literal table's; the result at (n, i, k) is the sum over j of the camera matrix's (i, j) entry
  times the pose matrix's (j, k) entry.
-/
import proofs.«122514_j21268678050229_2_alg».proof.Proof.RefStages
import proofs.«122514_j21268678050229_2_alg».proof.Proof.Spec
import Idealize.ShloMosaic.Lib.Pipeline.Value
import Idealize.ShloMosaic.Lib.ValueIdx
import Idealize.ShloMosaic.Lib.StackMember

noncomputable section

namespace Cert.ReferenceIdeal.RefValue

open Cert.ReferenceIdeal Cert.ReferenceIdeal.Gen Idealize.ShloMosaic Idealize.ShloMosaic.ValueIdx

/-- The translation column reads the translation's coordinate. -/
theorem transCol_apply (t : FVec Ideal S1048576x3 .f32) (n : Fin 1048576) (i : Fin 3) (c : Fin 1) :
    transCol t (ix3 n i c) = t (ix2 n i) := by
  unfold transCol
  exact broadcastInDim_apply _ _ t (ix3 n i c) (ix2 n i) fun a => by
    match a with
    | ⟨0, _⟩ => rfl
    | ⟨1, _⟩ => rfl

/-- Columns 0 to 2 of the first three rows are the rotation's. -/
theorem topM_left (r t : FVec Ideal S1048576x3 .f32) (n : Fin 1048576) (i : Fin 3) (j : Fin 4) (hj : j.val < 3) :
    topM r t (ix3 n i j) = rotM r (ix3 n i (⟨j.val, hj⟩ : Fin 3)) := by
  unfold topM
  refine concatenate_pair_apply_left (2 : Fin 3) (rotM r) (transCol t)
    concatenates_S1048576x3x3_S1048576x3x1_S1048576x3x4_d2 (ix3 n i j) rfl (ix3 n i (⟨j.val, hj⟩ : Fin 3)) fun b => ?_
  match b with
  | ⟨0, _⟩ => rfl
  | ⟨1, _⟩ => rfl
  | ⟨2, _⟩ => rfl

/-- Column 3 of the first three rows is the translation. -/
theorem topM_right (r t : FVec Ideal S1048576x3 .f32) (n : Fin 1048576) (i : Fin 3) (j : Fin 4) (hj : ¬ j.val < 3) :
    topM r t (ix3 n i j) = t (ix2 n i) := by
  unfold topM
  refine (concatenate_pair_apply_right (2 : Fin 3) (rotM r) (transCol t)
    concatenates_S1048576x3x3_S1048576x3x1_S1048576x3x4_d2 (ix3 n i j) rfl rfl (ix3 n i (0 : Fin 1)) (fun b hb => ?_) ?_).trans
    (transCol_apply t n i 0)
  · match b with
    | ⟨0, _⟩ => rfl
    | ⟨1, _⟩ => rfl
    | ⟨2, _⟩ => exact absurd rfl hb
  · show 0 + 3 = j.val
    have := j.isLt
    omega

/-- The literal table read at its row-major position. -/
theorem lit_row (j : Fin 4) : Ideal.ofBits .f32 (lit0 (S4.rowMajor (ix1 j)))
    = (![Cert.Pose.zeroW, Cert.Pose.zeroW, Cert.Pose.zeroW, Cert.Pose.oneW] : Fin 4 → EReal) j := by
  have e : S4.rowMajor (ix1 j) = j := Fin.ext (Shape.rowMajor_val_one (ix1 j))
  rw [e]
  unfold Cert.Pose.zeroW Cert.Pose.oneW
  fin_cases j <;> rfl

/-- The constant last row. -/
theorem lastRow_apply (n : Fin 1048576) (c : Fin 1) (j : Fin 4) :
    lastRow (F := Ideal) (ix3 n c j)
      = (![Cert.Pose.zeroW, Cert.Pose.zeroW, Cert.Pose.zeroW, Cert.Pose.oneW] : Fin 4 → EReal) j := by
  unfold lastRow
  refine (broadcastInDim_apply _ _ _ (ix3 n c j) (ix3 (0 : Fin 1) (0 : Fin 1) j) fun a => ?_).trans ?_
  · match a with
    | ⟨0, _⟩ => rfl
    | ⟨1, _⟩ => rfl
    | ⟨2, _⟩ => rfl
  refine (broadcastInDim_apply _ _ _ (ix3 (0 : Fin 1) (0 : Fin 1) j) (ix1 j) fun a => ?_).trans (lit_row j)
  match a with
  | ⟨0, _⟩ => rfl

/-- Rows 0 to 2 of the camera matrix. -/
theorem camM_top (r t : FVec Ideal S1048576x3 .f32) (n : Fin 1048576) (i j : Fin 4) (hi : i.val < 3) :
    camM r t (ix3 n i j) = topM r t (ix3 n (⟨i.val, hi⟩ : Fin 3) j) := by
  unfold camM
  refine concatenate_pair_apply_left (1 : Fin 3) (topM r t) lastRow
    concatenates_S1048576x3x4_S1048576x1x4_S1048576x4x4_d1 (ix3 n i j) rfl (ix3 n (⟨i.val, hi⟩ : Fin 3) j) fun b => ?_
  match b with
  | ⟨0, _⟩ => rfl
  | ⟨1, _⟩ => rfl
  | ⟨2, _⟩ => rfl

/-- Row 3 of the camera matrix. -/
theorem camM_bottom (r t : FVec Ideal S1048576x3 .f32) (n : Fin 1048576) (i j : Fin 4) (hi : ¬ i.val < 3) :
    camM r t (ix3 n i j)
      = (![Cert.Pose.zeroW, Cert.Pose.zeroW, Cert.Pose.zeroW, Cert.Pose.oneW] : Fin 4 → EReal) j := by
  unfold camM
  refine (concatenate_pair_apply_right (1 : Fin 3) (topM r t) lastRow
    concatenates_S1048576x3x4_S1048576x1x4_S1048576x4x4_d1 (ix3 n i j) rfl rfl (ix3 n (0 : Fin 1) j) (fun b hb => ?_) ?_).trans
    (lastRow_apply n 0 j)
  · match b with
    | ⟨0, _⟩ => rfl
    | ⟨1, _⟩ => exact absurd rfl hb
    | ⟨2, _⟩ => rfl
  · show 0 + 3 = i.val
    have := i.isLt
    omega

/-- The result at (n, i, k): the camera matrix's row times the pose matrix's column. -/
theorem out_apply_sum (P : FVec Ideal S1048576x4x4 .f32) (r t : FVec Ideal S1048576x3 .f32) (n : Fin 1048576) (i k : Fin 4) :
    out P r t (ix3 n i k) = ∑ j : Fin 4, camM r t (ix3 n i j) * P (ix3 n j k) := by
  unfold out
  exact StackMember.dotGeneral_stack_apply (G := 1048576) (m := 4) (n := 4) (k := 4)
    dot_S1048576x4x4_S1048576x4x4_S1048576x4x4_2_1_1_2_0_0_wf none (camM r t) P n i k

end Cert.ReferenceIdeal.RefValue

end
-- ==== Proof.RefValue.lean ====
/-
  The reference program's result is the specification's array: every weakly fair execution of @main terminates with
  the result buffer holding, at each index (n, i, k), the sum over j of the camera matrix's (i, j) entry at row n's
  vector and translation times the pose matrix's (j, k) entry, and with the three arguments unchanged. The run gives the
  operations' fold; the fold is the staged function of the arguments; the staged function is read index by index.
-/
import proofs.«122514_j21268678050229_2_alg».proof.Proof.RefReadRot
import proofs.«122514_j21268678050229_2_alg».proof.Proof.RefReadCam

noncomputable section

namespace Cert.ReferenceIdeal.RefValue

open Cert.ReferenceIdeal Cert.ReferenceIdeal.Gen Idealize.ShloMosaic Idealize.ShloMosaic.ValueIdx
open Idealize.ShloMosaic.TcCoe Idealize.SL.Sem Idealize.ShloMosaic.StableHlo

/-- The camera matrix of row `n` at (i, j) is the specification's. -/
theorem camM_apply (r t : FVec Ideal S1048576x3 .f32) (n : Fin 1048576) (i j : Fin 4) :
    camM r t (ix3 n i j) = Cert.Pose.camR (fun a => r (ix2 n a)) (fun a => t (ix2 n a)) i j := by
  unfold Cert.Pose.camR
  by_cases hi : i.val < 3
  · rw [dif_pos hi, camM_top r t n i j hi]
    by_cases hj : j.val < 3
    · rw [dif_pos hj, topM_left r t n _ j hj, rotM_apply]
    · rw [dif_neg hj, topM_right r t n _ j hj]
  · rw [dif_neg hi, camM_bottom r t n i j hi]

/-- The result at (n, i, k) is the specification's entry. -/
theorem out_apply (P : FVec Ideal S1048576x4x4 .f32) (r t : FVec Ideal S1048576x3 .f32) (n : Fin 1048576) (i k : Fin 4) :
    out P r t (ix3 n i k) = Cert.Pose.poseRAt P r t n i k := by
  rw [out_apply_sum]
  unfold Cert.Pose.poseRAt
  exact Finset.sum_congr rfl fun j _ => by rw [camM_apply]

/-- The result array is the specification's. -/
theorem out_eq_poseR (P : FVec Ideal S1048576x4x4 .f32) (r t : FVec Ideal S1048576x3 .f32) :
    out P r t = Cert.Pose.poseR P r t := by
  funext j
  obtain ⟨n, i, k, rfl⟩ : ∃ (n : Fin 1048576) (i k : Fin 4), j = ix3 n i k := ⟨j 0, j 1, j 2, eq_ix3 j⟩
  exact (out_apply P r t n i k).trans (Cert.Pose.poseR_ix3 P r t n i k).symm

/-- On the device, from any memory with zero counters: every weakly fair execution of @main terminates with the result
    buffer at the specification's array of the three arguments' launch contents, and the arguments unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ fun r => ∀ c : Dev nD,
      r.2.mem ((c.tc : Thread nD τ).loc main_v59) = Cert.Pose.poseR (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c main_v59).trans (out_eq (launchContents m c))).trans (out_eq_poseR _ _ _),
        (h c main_arg0).trans (arg0_eq (launchContents m c)),
        (h c main_arg1).trans (arg1_eq (launchContents m c)),
        (h c main_arg2).trans (arg2_eq (launchContents m c))⟩)
    (run_fold m ρ)

end Cert.ReferenceIdeal.RefValue

end
-- ==== Proof.lean ====
/-
  One camera pose per row: from an axis-angle vector `v` and a translation `w` build the camera matrix
  `C = [R | w; 0 0 0 1]`, `R = I + (sin θ / θ) K + ((1 - cos θ) / θ²) K²` Rodrigues' rotation with `K` the skew matrix
  of `v` and `θ = |v| + ε`, and multiply it by the row's 4×4 pose matrix. The claim: over the extended reals, on
  finite inputs, the blocked program and the plain reference compute the same array.

  The blocked program works on 64 blocks of 16384 rows, each row's matrices flattened to 16 columns and the vector
  arrays transposed; it writes `K²` as `v vᵀ - |v|² I`, a negation as `0 - x`, and adds the product's four terms left
  to right. Read back through the blocks and the two reshapes, its result is `Cert.Pose.poseK` of the arguments
  (`Cert.KernelIdeal.Hand.run`). The reference builds `K` by concatenation, `K²` and the final product as
  contractions, the identity by comparing two index grids; read index by index its result is `Cert.Pose.poseR`
  (`Cert.ReferenceIdeal.RefValue.run`). The two are one function wherever the axis-angle vector is real
  (`Cert.Pose.pose_eq`): `K² = v vᵀ - |v|² I` is an identity of real polynomials, and the rest — `c · 0 = 0`,
  `0 + c = c`, `0 - c = -c`, a sum's grouping — holds for all extended reals, so the coefficients
  `sin θ / θ` and `(1 - cos θ) / θ²` are never opened. That the axis-angle entries are real is what the precondition
  says of them (`Cert.Pre_finite_inputs.Hand.real_of_pre`). The two programs' frames are their runs with the result
  dropped; no operation was rewritten between the program and its idealization, so that claim is trivial.
-/
import proofs.«122514_j21268678050229_2_alg».proof.Defs
import proofs.«122514_j21268678050229_2_alg».proof.Proof.Gen.Kernel
import proofs.«122514_j21268678050229_2_alg».proof.Proof.Gen.Kernel.Skeleton
import proofs.«122514_j21268678050229_2_alg».proof.Proof.Gen.Kernel.Launch
import proofs.«122514_j21268678050229_2_alg».proof.Proof.Gen.Kernel.Points
import proofs.«122514_j21268678050229_2_alg».proof.Proof.Gen.Kernel.Frame
import proofs.«122514_j21268678050229_2_alg».proof.Proof.Gen.KernelIdeal
import proofs.«122514_j21268678050229_2_alg».proof.Proof.Gen.KernelIdeal.Skeleton
import proofs.«122514_j21268678050229_2_alg».proof.Proof.Gen.KernelIdeal.Launch
import proofs.«122514_j21268678050229_2_alg».proof.Proof.Gen.KernelIdeal.Points
import proofs.«122514_j21268678050229_2_alg».proof.Proof.Gen.KernelIdeal.Frame
import proofs.«122514_j21268678050229_2_alg».proof.Proof.Gen.ReferenceIdeal
import proofs.«122514_j21268678050229_2_alg».proof.Proof.Gen.Pre_finite_inputs
import proofs.«122514_j21268678050229_2_alg».proof.Proof.KHost
import proofs.«122514_j21268678050229_2_alg».proof.Proof.Law
import proofs.«122514_j21268678050229_2_alg».proof.Proof.Finite
import proofs.«122514_j21268678050229_2_alg».proof.Proof.RefValue
import Idealize.ShloMosaic.Adequacy
import Idealize.ShloMosaic.Init

noncomputable section

namespace Cert.Proof

open Idealize.ShloMosaic Idealize.SL.Sem

/-- The blocked program terminates without a fault and leaves its arguments as they were, at the word level … -/
theorem frame_k : Cert.frame_Kernel := fun m ρ _ => Cert.Kernel.Gen.frame m ρ

/-- … and over the extended reals. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

/-- Nothing was rewritten between the program and its idealization. -/
theorem preserves : Cert.preserves_Kernel_KernelIdeal := trivial

/-- Both programs end with the same array: the blocked one at `poseK` of the arguments, the reference at `poseR` of
    arguments that agree, and on real axis-angle entries the two are one function. -/
theorem algebraic : Cert.algebraic_KernelIdeal_ReferenceIdeal := by
  intro m ρ m' ρ' hpre hagree
  refine ⟨fun c => Cert.Pose.poseK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]
  exact (Cert.Pose.pose_eq _ _ _ (Cert.Pre_finite_inputs.Hand.real_of_pre _ _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
